-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x16 : Shape := ⟨2, ![500000, 16]⟩
abbrev S16 : Shape := ⟨1, ![16]⟩
abbrev S16x16 : Shape := ⟨2, ![16, 16]⟩
abbrev S_ : Shape := ⟨0, ![]⟩
abbrev S1x16 : Shape := ⟨2, ![1, 16]⟩

class Facts : Prop where
  reducesTo_S500000x16_S16_d0 : S500000x16.ReducesTo [0] S16
  h_S_ : 0 < S_.numel
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S500000x16 : S_.BroadcastsInDim S500000x16 (![] : Fin 0 → Fin S500000x16.rank)
  bcast_S_S16 : S_.BroadcastsInDim S16 (![] : Fin 0 → Fin S16.rank)
  reducesTo_S500000x16_S_d0_1 : S500000x16.ReducesTo [0, 1] S_
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_v15 : FVec F S500000x16 .f32) (main_v34 : IVec S_ 1) (main_cst_10 : FVec F S_ .f32) : IVec S_ 1 :=
  let main_v35 : FVec F S500000x16 .f32 := broadcastInDim S500000x16 ![] bcast_S_S500000x16 main_cst_10
  let main_v36 : IVec S500000x16 1 := cmpf .ogt main_v15 main_v35
  let main_c_11 : IVec S_ 1 := constantI S_ 1 1#1
  let main_v37 : IVec S_ 1 := (fun x v => Host.reduce IntOp.andi x v reducesTo_S500000x16_S_d0_1 h_S_) main_v36 main_c_11
  let main_v38 : IVec S_ 1 := andi main_v34 main_v37
  main_v38

def fn_part1 {F : FTy → Type} [FloatOps F] (main_arg1 : FVec F S16 .f32) (main_arg2 : FVec F S16 .f32) (main_arg3 : FVec F S16x16 .f32) (main_v15 : FVec F S500000x16 .f32) (main_v18 : IVec S500000x16 1) : IVec S_ 1 :=
  let main_c : IVec S_ 1 := constantI S_ 1 1#1
  let main_v19 : IVec S_ 1 := (fun x v => Host.reduce IntOp.andi x v reducesTo_S500000x16_S_d0_1 h_S_) main_v18 main_c
  let main_v20 : FVec F S16 .f32 := Host.absf main_arg1
  let main_cst_4 : FVec F S_ .f32 := constant S_ .f32 0x7F800000#32
  let main_v21 : FVec F S16 .f32 := broadcastInDim S16 ![] bcast_S_S16 main_cst_4
  let main_v22 : IVec S16 1 := cmpf .olt main_v20 main_v21
  let main_c_5 : IVec S_ 1 := constantI S_ 1 1#1
  let main_v23 : IVec S_ 1 := (fun x v => Host.reduce IntOp.andi x v reducesTo_S16_S_d0 h_S_) main_v22 main_c_5
  let main_v24 : IVec S_ 1 := andi main_v19 main_v23
  let main_v25 : FVec F S16 .f32 := Host.absf main_arg2
  let main_cst_6 : FVec F S_ .f32 := constant S_ .f32 0x7F800000#32
  let main_v26 : FVec F S16 .f32 := broadcastInDim S16 ![] bcast_S_S16 main_cst_6
  let main_v27 : IVec S16 1 := cmpf .olt main_v25 main_v26
  let main_c_7 : IVec S_ 1 := constantI S_ 1 1#1
  let main_v28 : IVec S_ 1 := (fun x v => Host.reduce IntOp.andi x v reducesTo_S16_S_d0 h_S_) main_v27 main_c_7
  let main_v29 : IVec S_ 1 := andi main_v24 main_v28
  let main_v30 : FVec F S16x16 .f32 := Host.absf main_arg3
  let main_cst_8 : FVec F S_ .f32 := constant S_ .f32 0x7F800000#32
  let main_v31 : FVec F S16x16 .f32 := broadcastInDim S16x16 ![] bcast_S_S16x16 main_cst_8
  let main_v32 : IVec S16x16 1 := cmpf .olt main_v30 main_v31
  let main_c_9 : IVec S_ 1 := constantI S_ 1 1#1
  let main_v33 : IVec S_ 1 := (fun x v => Host.reduce IntOp.andi x v reducesTo_S16x16_S_d0_1 h_S_) main_v32 main_c_9
  let main_v34 : IVec S_ 1 := andi main_v29 main_v33
  let main_cst_10 : FVec F S_ .f32 := constant S_ .f32 0x00000000#32
  fn_part2 (F := F) main_v15 main_v34 main_cst_10

def fn {F : FTy → Type} [FloatOps F] (main_arg0 : FVec F S500000x16 .f32) (main_arg1 : FVec F S16 .f32) (main_arg2 : FVec F S16 .f32) (main_arg3 : FVec F S16x16 .f32) : IVec S_ 1 :=
  let main_cst : FVec F S_ .f32 := constant S_ .f32 0x7F800000#32
  let main_v0 : FVec F S16 .f32 := (fun x v => Host.reduce FloatOps.minimumf x v reducesTo_S500000x16_S16_d0 h_S_) main_arg0 main_cst
  let main_v1 : FVec F S1x16 .f32 := broadcastInDim S1x16 ![1] bcast_S16_S1x16_1 main_v0
  let main_v2 : FVec F S500000x16 .f32 := broadcastInDim S500000x16 ![0, 1] bcast_S1x16_S500000x16_0_1 main_v1
  let main_v3 : FVec F S500000x16 .f32 := subf main_arg0 main_v2
  let main_cst_0 : FVec F S_ .f32 := constant S_ .f32 0x402DF854#32
  let main_v4 : FVec F S500000x16 .f32 := broadcastInDim S500000x16 ![] bcast_S_S500000x16 main_cst_0
  let main_v5 : FVec F S500000x16 .f32 := addf main_v3 main_v4
  let main_cst_1 : FVec F S_ .f32 := constant S_ .f32 0x402DF854#32
  let main_v6 : FVec F S500000x16 .f32 := broadcastInDim S500000x16 ![] bcast_S_S500000x16 main_cst_1
  let main_v7 : FVec F S500000x16 .f32 := maximumf main_v5 main_v6
  let main_cst_2 : FVec F S_ .f32 := constant S_ .f32 0x3F800000#32
  let main_v8 : FVec F S16 .f32 := broadcastInDim S16 ![] bcast_S_S16 main_cst_2
  let main_v9 : FVec F S16 .f32 := addf main_v8 main_arg1
  let main_v10 : FVec F S1x16 .f32 := broadcastInDim S1x16 ![1] bcast_S16_S1x16_1 main_v9
  let main_v11 : FVec F S500000x16 .f32 := broadcastInDim S500000x16 ![0, 1] bcast_S1x16_S500000x16_0_1 main_v10
  let main_v12 : FVec F S500000x16 .f32 := mulf main_v11 main_v7
  let main_v13 : FVec F S1x16 .f32 := broadcastInDim S1x16 ![1] bcast_S16_S1x16_1 main_arg2
  let main_v14 : FVec F S500000x16 .f32 := broadcastInDim S500000x16 ![0, 1] bcast_S1x16_S500000x16_0_1 main_v13
  let main_v15 : FVec F S500000x16 .f32 := addf main_v12 main_v14
  let main_v16 : FVec F S500000x16 .f32 := Host.absf main_arg0
  let main_cst_3 : FVec F S_ .f32 := constant S_ .f32 0x7F800000#32
  let main_v17 : FVec F S500000x16 .f32 := broadcastInDim S500000x16 ![] bcast_S_S500000x16 main_cst_3
  let main_v18 : IVec S500000x16 1 := cmpf .olt main_v16 main_v17
  fn_part1 (F := F) main_arg1 main_arg2 main_arg3 main_v15 main_v18
-- ==== Kernel.lean ====
abbrev S500000x16 : Shape := ⟨2, ![500000, 16]⟩
abbrev S16 : Shape := ⟨1, ![16]⟩
abbrev S16x16 : Shape := ⟨2, ![16, 16]⟩
abbrev S_ : Shape := ⟨0, ![]⟩
abbrev S16x500000 : Shape := ⟨2, ![16, 500000]⟩
abbrev S16x507904 : Shape := ⟨2, ![16, 507904]⟩
abbrev S16x1 : Shape := ⟨2, ![16, 1]⟩
abbrev S16x8192 : Shape := ⟨2, ![16, 8192]⟩
abbrev S1x8192 : Shape := ⟨2, ![1, 8192]⟩
abbrev S8192 : Shape := ⟨1, ![8192]⟩

abbrev nBuf : Space → Nat
  | .hbm => 30
  | .vmem => 11
  | .smem => 0
  | _ => 0

abbrev bufTy : (tb : Table) → Fin (tcTables nBuf tb) → BufTy
  | .hbm, ⟨0, _⟩ => ⟨S500000x16, .f32⟩
  | .hbm, ⟨1, _⟩ => ⟨S16, .f32⟩
  | .hbm, ⟨2, _⟩ => ⟨S16, .f32⟩
  | .hbm, ⟨3, _⟩ => ⟨S16x16, .f32⟩
  | .hbm, ⟨4, _⟩ => ⟨S_, .f32⟩
  | .hbm, ⟨5, _⟩ => ⟨S16, .f32⟩
  | .hbm, ⟨6, _⟩ => ⟨S16x16, .i32⟩
  | .hbm, ⟨7, _⟩ => ⟨S_, .i32⟩
  | .hbm, ⟨8, _⟩ => ⟨S16x16, .i32⟩
  | .hbm, ⟨9, _⟩ => ⟨S16x16, .i32⟩
  | .hbm, ⟨10, _⟩ => ⟨S16x16, .i32⟩
  | .hbm, ⟨11, _⟩ => ⟨S16x16, .i1⟩
  | .hbm, ⟨12, _⟩ => ⟨S_, .f32⟩
  | .hbm, ⟨13, _⟩ => ⟨S16x16, .f32⟩
  | .hbm, ⟨14, _⟩ => ⟨S16x16, .f32⟩
  | .hbm, ⟨15, _⟩ => ⟨S16x16, .f32⟩
  | .hbm, ⟨16, _⟩ => ⟨S16x16, .f32⟩
  | .hbm, ⟨17, _⟩ => ⟨S16x500000, .f32⟩
  | .hbm, ⟨18, _⟩ => ⟨S_, .i32⟩
  | .hbm, ⟨19, _⟩ => ⟨S_, .f32⟩
  | .hbm, ⟨20, _⟩ => ⟨S16x507904, .f32⟩
  | .hbm, ⟨21, _⟩ => ⟨S16x1, .f32⟩
  | .hbm, ⟨22, _⟩ => ⟨S16x1, .f32⟩
  | .hbm, ⟨23, _⟩ => ⟨S16x1, .f32⟩
  | .hbm, ⟨24, _⟩ => ⟨S16x507904, .f32⟩
  | .hbm, ⟨25, _⟩ => ⟨S16x507904, .f32⟩
  | .hbm, ⟨26, _⟩ => ⟨S16x500000, .f32⟩
  | .hbm, ⟨27, _⟩ => ⟨S500000x16, .f32⟩
  | .hbm, ⟨28, _⟩ => ⟨S16x500000, .f32⟩
  | .hbm, ⟨29, _⟩ => ⟨S500000x16, .f32⟩
  | .local _ .vmem, ⟨0, _⟩ => ⟨S16x8192, .f32⟩
  | .local _ .vmem, ⟨1, _⟩ => ⟨S16x8192, .f32⟩
  | .local _ .vmem, ⟨2, _⟩ => ⟨S16x1, .f32⟩
  | .local _ .vmem, ⟨3, _⟩ => ⟨S16x1, .f32⟩
  | .local _ .vmem, ⟨4, _⟩ => ⟨S16x16, .f32⟩
  | .local _ .vmem, ⟨5, _⟩ => ⟨S16x1, .f32⟩
  | .local _ .vmem, ⟨6, _⟩ => ⟨S16x8192, .f32⟩
  | .local _ .vmem, ⟨7, _⟩ => ⟨S16x8192, .f32⟩
  | .local _ .vmem, ⟨8, _⟩ => ⟨S16x8192, .f32⟩
  | .local _ .vmem, ⟨9, _⟩ => ⟨S16x8192, .f32⟩
  | .local _ .vmem, ⟨10, _⟩ => ⟨S16x8192, .f32⟩
  | _, _ => ⟨S500000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S500000x16_S16_d0 : S500000x16.ReducesTo [0] S16
  h_S_ : 0 < S_.numel
  bcast_S_S16x16 : S_.BroadcastsInDim S16x16 (![] : Fin 0 → Fin S16x16.rank)
  transposes_S16x16_S16x16_1_0 : S16x16.Transposes [1, 0] S16x16
  transposes_S500000x16_S16x500000_1_0 : S500000x16.Transposes [1, 0] S16x500000
  pads_S16x500000_S16x507904_000_079040 : S16x500000.Pads (![0, 0] : Fin 2 → Nat) ![0, 7904] ![0, 0] S16x507904
  shapeCasts_S16_S16x1 : S16.ShapeCasts S16x1
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x16_S16x16_0_0 : ∀ a, (![0, 0] : Fin 2 → Nat) a + S16x16.size a ≤ S16x16.size a
  h_S16x16 : 0 < S16x16.numel
  shapeCasts_S16x16_S16x16 : S16x16.ShapeCasts S16x16
  broadcasts_S16x1_S16x8192 : S16x1.Broadcasts S16x8192
  iota_S16x8192_d0_w32 : S16x8192.Iotas .tc 32 [0]
  slices_S16x16_o0_0_S16x1 : S16x16.Slices ![0, 0] S16x1
  slices_S16x8192_o0_0_S1x8192 : S16x8192.Slices ![0, 0] S1x8192
  broadcasts_S1x8192_S16x8192 : S1x8192.Broadcasts S16x8192
  shapeCasts_S1x8192_S1x8192 : S1x8192.ShapeCasts S1x8192
  reduces_S16x8192_S8192 : S16x8192.Reduces [0] S8192
  shapeCasts_S8192_S1x8192 : S8192.ShapeCasts S1x8192
  inb_S16x8192_S1x8192_0_0 : ∀ a, (![0, 0] : Fin 2 → Nat) a + S1x8192.size a ≤ S16x8192.size a
  h_S1x8192 : 0 < S1x8192.numel
  slices_S16x16_o0_1_S16x1 : S16x16.Slices ![0, 1] S16x1
  slices_S16x8192_o1_0_S1x8192 : S16x8192.Slices ![1, 0] S1x8192
  inb_S16x8192_S1x8192_1_0 : ∀ a, (![1, 0] : Fin 2 → Nat) a + S1x8192.size a ≤ S16x8192.size a
  slices_S16x16_o0_2_S16x1 : S16x16.Slices ![0, 2] S16x1
  slices_S16x8192_o2_0_S1x8192 : S16x8192.Slices ![2, 0] S1x8192
  inb_S16x8192_S1x8192_2_0 : ∀ a, (![2, 0] : Fin 2 → Nat) a + S1x8192.size a ≤ S16x8192.size a
  slices_S16x16_o0_3_S16x1 : S16x16.Slices ![0, 3] S16x1
  slices_S16x8192_o3_0_S1x8192 : S16x8192.Slices ![3, 0] S1x8192
  inb_S16x8192_S1x8192_3_0 : ∀ a, (![3, 0] : Fin 2 → Nat) a + S1x8192.size a ≤ S16x8192.size a
  slices_S16x16_o0_4_S16x1 : S16x16.Slices ![0, 4] S16x1
  slices_S16x8192_o4_0_S1x8192 : S16x8192.Slices ![4, 0] S1x8192
  inb_S16x8192_S1x8192_4_0 : ∀ a, (![4, 0] : Fin 2 → Nat) a + S1x8192.size a ≤ S16x8192.size a
  slices_S16x16_o0_5_S16x1 : S16x16.Slices ![0, 5] S16x1
  slices_S16x8192_o5_0_S1x8192 : S16x8192.Slices ![5, 0] S1x8192
  inb_S16x8192_S1x8192_5_0 : ∀ a, (![5, 0] : Fin 2 → Nat) a + S1x8192.size a ≤ S16x8192.size a
  slices_S16x16_o0_6_S16x1 : S16x16.Slices ![0, 6] S16x1
  slices_S16x8192_o6_0_S1x8192 : S16x8192.Slices ![6, 0] S1x8192
  inb_S16x8192_S1x8192_6_0 : ∀ a, (![6, 0] : Fin 2 → Nat) a + S1x8192.size a ≤ S16x8192.size a
  slices_S16x16_o0_7_S16x1 : S16x16.Slices ![0, 7] S16x1
  slices_S16x8192_o7_0_S1x8192 : S16x8192.Slices ![7, 0] S1x8192
  inb_S16x8192_S1x8192_7_0 : ∀ a, (![7, 0] : Fin 2 → Nat) a + S1x8192.size a ≤ S16x8192.size a
  slices_S16x16_o0_8_S16x1 : S16x16.Slices ![0, 8] S16x1
  slices_S16x8192_o8_0_S1x8192 : S16x8192.Slices ![8, 0] S1x8192
  inb_S16x8192_S1x8192_8_0 : ∀ a, (![8, 0] : Fin 2 → Nat) a + S1x8192.size a ≤ S16x8192.size a
  slices_S16x16_o0_9_S16x1 : S16x16.Slices ![0, 9] S16x1
  slices_S16x8192_o9_0_S1x8192 : S16x8192.Slices ![9, 0] S1x8192
  inb_S16x8192_S1x8192_9_0 : ∀ a, (![9, 0] : Fin 2 → Nat) a + S1x8192.size a ≤ S16x8192.size a
  slices_S16x16_o0_10_S16x1 : S16x16.Slices ![0, 10] S16x1
  slices_S16x8192_o10_0_S1x8192 : S16x8192.Slices ![10, 0] S1x8192
  inb_S16x8192_S1x8192_10_0 : ∀ a, (![10, 0] : Fin 2 → Nat) a + S1x8192.size a ≤ S16x8192.size a
  slices_S16x16_o0_11_S16x1 : S16x16.Slices ![0, 11] S16x1
  slices_S16x8192_o11_0_S1x8192 : S16x8192.Slices ![11, 0] S1x8192
  inb_S16x8192_S1x8192_11_0 : ∀ a, (![11, 0] : Fin 2 → Nat) a + S1x8192.size a ≤ S16x8192.size a
  slices_S16x16_o0_12_S16x1 : S16x16.Slices ![0, 12] S16x1
  slices_S16x8192_o12_0_S1x8192 : S16x8192.Slices ![12, 0] S1x8192
  inb_S16x8192_S1x8192_12_0 : ∀ a, (![12, 0] : Fin 2 → Nat) a + S1x8192.size a ≤ S16x8192.size a
  slices_S16x16_o0_13_S16x1 : S16x16.Slices ![0, 13] S16x1
  slices_S16x8192_o13_0_S1x8192 : S16x8192.Slices ![13, 0] S1x8192
  inb_S16x8192_S1x8192_13_0 : ∀ a, (![13, 0] : Fin 2 → Nat) a + S1x8192.size a ≤ S16x8192.size a
  slices_S16x16_o0_14_S16x1 : S16x16.Slices ![0, 14] S16x1
  slices_S16x8192_o14_0_S1x8192 : S16x8192.Slices ![14, 0] S1x8192
  inb_S16x8192_S1x8192_14_0 : ∀ a, (![14, 0] : Fin 2 → Nat) a + S1x8192.size a ≤ S16x8192.size a
  slices_S16x16_o0_15_S16x1 : S16x16.Slices ![0, 15] S16x1
  slices_S16x8192_o15_0_S1x8192 : S16x8192.Slices ![15, 0] S1x8192
  inb_S16x8192_S1x8192_15_0 : ∀ a, (![15, 0] : Fin 2 → Nat) a + S1x8192.size a ≤ S16x8192.size a
  slices_S16x507904_S16x500000_0_0 : S16x507904.Slices ![0, 0] S16x500000
  transposes_S16x500000_S500000x16_1_0 : S16x500000.Transposes [1, 0] S500000x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x507904.size a
  hwx0_0 : ∀ i : grid0.Coords, EltTy.bits .f32 = 32 ∨ (Rect.block (s := S16x507904) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .f32 = 32 ∨ (Rect.block (s := S16x1) S16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x8192.size a ≤ S16x507904.size a
  hwx0_5 : ∀ i : grid0.Coords, EltTy.bits .f32 = 32 ∨ (Rect.block (s := S16x507904) S16x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x507904.size a
  hwx0_6 : ∀ i : grid0.Coords, EltTy.bits .f32 = 32 ∨ (Rect.block (s := S16x507904) S16x8192.size (cc0_transform_6 i) (hinb0_6 i)).WholeWords (EltTy.packing .f32)

variable [Facts₀]

abbrev win0_0 : Pipeline.Window sig grid0 :=
  Pipeline.Window.ofSpec (Memref.whole main_v5) S16x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S16x8192.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S16x8192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S500000x16 : Shape := ⟨2, ![500000, 16]⟩
abbrev S16 : Shape := ⟨1, ![16]⟩
abbrev S16x16 : Shape := ⟨2, ![16, 16]⟩
abbrev S_ : Shape := ⟨0, ![]⟩
abbrev S1x16 : Shape := ⟨2, ![1, 16]⟩
abbrev S500000x16x1 : Shape := ⟨3, ![500000, 16, 1]⟩
abbrev S1x16x16 : Shape := ⟨3, ![1, 16, 16]⟩
abbrev S500000x16x16 : Shape := ⟨3, ![500000, 16, 16]⟩
abbrev S500000x1x16 : Shape := ⟨3, ![500000, 1, 16]⟩
abbrev S500000 : Shape := ⟨1, ![500000]⟩
abbrev S500000x1 : Shape := ⟨2, ![500000, 1]⟩

abbrev nBuf : Space → Nat
  | .hbm => 84
  | .vmem => 0
  | .smem => 0
  | _ => 0

abbrev bufTy : (tb : Table) → Fin (tcTables nBuf tb) → BufTy
  | .hbm, ⟨0, _⟩ => ⟨S500000x16, .f32⟩
  | .hbm, ⟨1, _⟩ => ⟨S16, .f32⟩
  | .hbm, ⟨2, _⟩ => ⟨S16, .f32⟩
  | .hbm, ⟨3, _⟩ => ⟨S16x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16, .f32⟩
  | .hbm, ⟨10, _⟩ => ⟨S1x16, .f32⟩
  | .hbm, ⟨11, _⟩ => ⟨S500000x16, .f32⟩
  | .hbm, ⟨12, _⟩ => ⟨S500000x16, .f32⟩
  | .hbm, ⟨13, _⟩ => ⟨S_, .f32⟩
  | .hbm, ⟨14, _⟩ => ⟨S500000x16, .f32⟩
  | .hbm, ⟨15, _⟩ => ⟨S500000x16, .f32⟩
  | .hbm, ⟨16, _⟩ => ⟨S_, .f32⟩
  | .hbm, ⟨17, _⟩ => ⟨S500000x16, .f32⟩
  | .hbm, ⟨18, _⟩ => ⟨S500000x16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S1x16, .f32⟩
  | .hbm, ⟨23, _⟩ => ⟨S500000x16, .f32⟩
  | .hbm, ⟨24, _⟩ => ⟨S500000x16, .f32⟩
  | .hbm, ⟨25, _⟩ => ⟨S1x16, .f32⟩
  | .hbm, ⟨26, _⟩ => ⟨S500000x16, .f32⟩
  | .hbm, ⟨27, _⟩ => ⟨S500000x16, .f32⟩
  | .hbm, ⟨28, _⟩ => ⟨S16x16, .i32⟩
  | .hbm, ⟨29, _⟩ => ⟨S_, .i32⟩
  | .hbm, ⟨30, _⟩ => ⟨S16x16, .i32⟩
  | .hbm, ⟨31, _⟩ => ⟨S16x16, .i32⟩
  | .hbm, ⟨32, _⟩ => ⟨S16x16, .i32⟩
  | .hbm, ⟨33, _⟩ => ⟨S16x16, .i1⟩
  | .hbm, ⟨34, _⟩ => ⟨S_, .f32⟩
  | .hbm, ⟨35, _⟩ => ⟨S16x16, .f32⟩
  | .hbm, ⟨36, _⟩ => ⟨S16x16, .f32⟩
  | .hbm, ⟨37, _⟩ => ⟨S16x16, .f32⟩
  | .hbm, ⟨38, _⟩ => ⟨S16x16, .f32⟩
  | .hbm, ⟨39, _⟩ => ⟨S500000x16x1, .f32⟩
  | .hbm, ⟨40, _⟩ => ⟨S1x16x16, .f32⟩
  | .hbm, ⟨41, _⟩ => ⟨S500000x16x16, .f32⟩
  | .hbm, ⟨42, _⟩ => ⟨S500000x16x16, .f32⟩
  | .hbm, ⟨43, _⟩ => ⟨S500000x16x16, .f32⟩
  | .hbm, ⟨44, _⟩ => ⟨S500000x1x16, .f32⟩
  | .hbm, ⟨45, _⟩ => ⟨S_, .f32⟩
  | .hbm, ⟨46, _⟩ => ⟨S16x16, .f32⟩
  | .hbm, ⟨47, _⟩ => ⟨S16x16, .f32⟩
  | .hbm, ⟨48, _⟩ => ⟨S1x16x16, .f32⟩
  | .hbm, ⟨49, _⟩ => ⟨S500000x16x16, .f32⟩
  | .hbm, ⟨50, _⟩ => ⟨S500000x16x16, .f32⟩
  | .hbm, ⟨51, _⟩ => ⟨S500000x16x16, .f32⟩
  | .hbm, ⟨52, _⟩ => ⟨S500000x16x16, .f32⟩
  | .hbm, ⟨53, _⟩ => ⟨S16x16, .i32⟩
  | .hbm, ⟨54, _⟩ => ⟨S16x16, .i32⟩
  | .hbm, ⟨55, _⟩ => ⟨S_, .i32⟩
  | .hbm, ⟨56, _⟩ => ⟨S16x16, .i32⟩
  | .hbm, ⟨57, _⟩ => ⟨S16x16, .i32⟩
  | .hbm, ⟨58, _⟩ => ⟨S16x16, .i1⟩
  | .hbm, ⟨59, _⟩ => ⟨S500000x16x1, .f32⟩
  | .hbm, ⟨60, _⟩ => ⟨S500000x16x16, .i1⟩
  | .hbm, ⟨61, _⟩ => ⟨S500000x16x16, .f32⟩
  | .hbm, ⟨62, _⟩ => ⟨S500000x16x16, .f32⟩
  | .hbm, ⟨63, _⟩ => ⟨S_, .f32⟩
  | .hbm, ⟨64, _⟩ => ⟨S500000x16, .f32⟩
  | .hbm, ⟨65, _⟩ => ⟨S_, .f32⟩
  | .hbm, ⟨66, _⟩ => ⟨S500000x16, .f32⟩
  | .hbm, ⟨67, _⟩ => ⟨S500000x16, .f32⟩
  | .hbm, ⟨68, _⟩ => ⟨S_, .f32⟩
  | .hbm, ⟨69, _⟩ => ⟨S500000, .f32⟩
  | .hbm, ⟨70, _⟩ => ⟨S_, .f32⟩
  | .hbm, ⟨71, _⟩ => ⟨S500000, .f32⟩
  | .hbm, ⟨72, _⟩ => ⟨S500000, .f32⟩
  | .hbm, ⟨73, _⟩ => ⟨S500000x1, .f32⟩
  | .hbm, ⟨74, _⟩ => ⟨S500000x16, .f32⟩
  | .hbm, ⟨75, _⟩ => ⟨S500000x16, .f32⟩
  | .hbm, ⟨76, _⟩ => ⟨S500000x16, .f32⟩
  | .hbm, ⟨77, _⟩ => ⟨S_, .f32⟩
  | .hbm, ⟨78, _⟩ => ⟨S500000, .f32⟩
  | .hbm, ⟨79, _⟩ => ⟨S500000x1, .f32⟩
  | .hbm, ⟨80, _⟩ => ⟨S500000x1, .f32⟩
  | .hbm, ⟨81, _⟩ => ⟨S500000x16, .f32⟩
  | .hbm, ⟨82, _⟩ => ⟨S500000x16, .f32⟩
  | .hbm, ⟨83, _⟩ => ⟨S500000x16, .f32⟩
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_cst : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_v0 : Ref sig .tc := ⟨.hbm, 60, rfl⟩
abbrev main_call1_v1 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call2_cst : Ref sig .tc := ⟨.hbm, 68, rfl⟩
abbrev main_call2_v0 : Ref sig .tc := ⟨.hbm, 69, rfl⟩
abbrev main_call2_cst_0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_cst_1 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_v45 : Ref sig .tc := ⟨.hbm, 82, rfl⟩
abbrev main_v46 : Ref sig .tc := ⟨.hbm, 83, rfl⟩

abbrev nD : Nat := 1
abbrev τ : Topo := Topo.v7x

variable {F : FTy → Type} [FloatOps F]

class Facts₀ : Prop where
  reducesTo_S500000x16_S16_d0 : S500000x16.ReducesTo [0] S16
  h_S_ : 0 < S_.numel
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S500000x16 : S_.BroadcastsInDim S500000x16 (![] : Fin 0 → Fin S500000x16.rank)
  bcast_S_S16 : S_.BroadcastsInDim S16 (![] : Fin 0 → Fin S16.rank)
  bcast_S_S16x16 : S_.BroadcastsInDim S16x16 (![] : Fin 0 → Fin S16x16.rank)
  transposes_S16x16_S16x16_1_0 : S16x16.Transposes [1, 0] S16x16
  bcast_S500000x16_S500000x16x1_0_1 : S500000x16.BroadcastsInDim S500000x16x1 (![0, 1] : Fin 2 → Fin S500000x16x1.rank)
  bcast_S16x16_S1x16x16_1_2 : S16x16.BroadcastsInDim S1x16x16 (![1, 2] : Fin 2 → Fin S1x16x16.rank)
  bcast_S500000x16x1_S500000x16x16_0_1_2 : S500000x16x1.BroadcastsInDim S500000x16x16 (![0, 1, 2] : Fin 3 → Fin S500000x16x16.rank)
  bcast_S1x16x16_S500000x16x16_0_1_2 : S1x16x16.BroadcastsInDim S500000x16x16 (![0, 1, 2] : Fin 3 → Fin S500000x16x16.rank)
  bcast_S500000x16_S500000x1x16_0_2 : S500000x16.BroadcastsInDim S500000x1x16 (![0, 2] : Fin 2 → Fin S500000x1x16.rank)
  bcast_S500000x1x16_S500000x16x16_0_1_2 : S500000x1x16.BroadcastsInDim S500000x16x16 (![0, 1, 2] : Fin 3 → Fin S500000x16x16.rank)
  bcast_S16x16_S500000x16x16_1_2 : S16x16.BroadcastsInDim S500000x16x16 (![1, 2] : Fin 2 → Fin S500000x16x16.rank)
  reducesTo_S500000x16x16_S500000x16_d2 : S500000x16x16.ReducesTo [2] S500000x16
  reducesTo_S500000x16_S500000_d1 : S500000x16.ReducesTo [1] S500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)

variable [Facts₀]

class Facts : Prop extends Facts₀ where

variable [Facts]
-- ==== Proof.LibSoftRow.lean ====
/-
  Soft alignment weights of one query against a finite family of keys, on the extended reals.

  For a real query `σ` and real keys `θ k` the weight of key `j` is

      w j = e^(-|σ - θ j|) / ∑ k, e^(-|σ - θ k|).

  Two ways of computing it on the extended reals are shown to give this real number when the inputs are real.

  * The factored form: `e^(-|σ - t|) = min (e^σ · e^(-t)) (e^(-σ) · e^t)`, because `e^σ · e^(-t) = e^(σ - t)`,
    `e^(-σ) · e^t = e^(-(σ - t))`, the exponential is monotone and `min x (-x) = -|x|`; the row is then divided by its sum.
  * The shifted softmax form: with `d k = max (σ - θ k) (-(σ - θ k)) = |σ - θ k|`, `M` the maximum of the `d k`,
    `x k = -d k - M`, `M'` the maximum of the `x k`, the weight is `e^(x j - M') / (0 + ∑ k, e^(x k - M'))`.
    Both maxima are maxima of finitely many (and at least one) reals, hence real, so `x k - M' = -d k + c` with one real
    `c = -M - M'` for the whole row, `e^(-d k + c) = e^(-d k) · e^c`, and the positive factor `e^c` cancels in the quotient.

  On the extended reals themselves neither identity holds at infinities (`e^⊤ · e^(-⊤)` is `⊤ · 0 = 0`, while
  `e^(-|⊤ - ⊤|)` is `e^(-⊥)`): that every input is real is what is used.
-/
import Idealize.ShloMosaic.PureOps.Ideal

noncomputable section

open scoped BigOperators

namespace Cert.LibSoftRow

open Idealize.ShloMosaic

variable {ι : Type} [Fintype ι]

/-- The image of a finite sum of reals is the sum of the images. -/
theorem coe_sum (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The embedding of the reals is monotone, so it commutes with `max` and `min`. -/
theorem coe_max (x y : ℝ) : ((max x y : ℝ) : EReal) = max (x : EReal) (y : EReal) :=
  EReal.coe_strictMono.monotone.map_max
theorem coe_min (x y : ℝ) : ((min x y : ℝ) : EReal) = min (x : EReal) (y : EReal) :=
  EReal.coe_strictMono.monotone.map_min

/-- The maximum, taken from `-∞`, of a nonempty finite family of reals is a real. -/
theorem fold_max_bot_coe [Nonempty ι] (r : ι → ℝ) :
    ∃ M : ℝ, (Finset.univ : Finset ι).fold max (⊥ : EReal) (fun k => (r k : EReal)) = (M : EReal) := by
  classical
  have key : ∀ s : Finset ι, s.Nonempty →
      ∃ M : ℝ, s.fold max (⊥ : EReal) (fun k => (r k : EReal)) = (M : EReal) := by
    intro s hs
    induction hs using Finset.Nonempty.cons_induction with
    | singleton a => exact ⟨r a, by rw [Finset.fold_singleton]; exact max_eq_left bot_le⟩
    | cons a s ha hs ih =>
      obtain ⟨M, hM⟩ := ih
      exact ⟨max (r a) M, by rw [Finset.fold_cons, hM, coe_max]⟩
  exact key _ Finset.univ_nonempty

/-- The weight of key `j`: `e^(-|σ - θ j|)` over the sum of the row. -/
def soft (σ : ℝ) (θ : ι → ℝ) (j : ι) : ℝ := Real.exp (-|σ - θ j|) / ∑ k, Real.exp (-|σ - θ k|)

theorem sum_exp_pos [Nonempty ι] (f : ι → ℝ) : 0 < ∑ k, Real.exp (f k) :=
  Finset.sum_pos (fun k _ => Real.exp_pos _) Finset.univ_nonempty

/-! ## The factored form -/

/-- `min (e^a · e^(0 - t)) (e^(0 - a) · e^t)`: the unnormalised weight in factored form. -/
def kerTerm (a t : EReal) : EReal := min (Ideal.exp a * Ideal.exp (0 - t)) (Ideal.exp (0 - a) * Ideal.exp t)

/-- The factored form divided by the sum of its row. -/
def kerRow (a : EReal) (τ : ι → EReal) (j : ι) : EReal := Ideal.div (kerTerm a (τ j)) (∑ k, kerTerm a (τ k))

/-- On the reals `min (e^x) (e^(-x)) = e^(-|x|)`. -/
theorem min_exp_exp_neg (x : ℝ) : min (Real.exp x) (Real.exp (-x)) = Real.exp (-|x|) := by
  rcases le_total 0 x with h | h
  · rw [abs_of_nonneg h, min_eq_right (Real.exp_le_exp.mpr (by linarith))]
  · rw [abs_of_nonpos h, neg_neg, min_eq_left (Real.exp_le_exp.mpr (by linarith))]

theorem kerTerm_coe (σ t : ℝ) : kerTerm (σ : EReal) (t : EReal) = ((Real.exp (-|σ - t|) : ℝ) : EReal) := by
  unfold kerTerm
  rw [zero_sub, zero_sub, ← EReal.coe_neg, ← EReal.coe_neg, Ideal.exp_coe, Ideal.exp_coe, Ideal.exp_coe, Ideal.exp_coe,
    ← EReal.coe_mul, ← EReal.coe_mul, ← coe_min, ← Real.exp_add, ← Real.exp_add,
    show σ + -t = σ - t by ring, show -σ + t = -(σ - t) by ring, min_exp_exp_neg]

/-- The ratio of two reals, the divisor not zero, on the extended reals. -/
theorem div_coe_coe (x y : ℝ) (hy : y ≠ 0) : Ideal.div (x : EReal) (y : EReal) = ((x / y : ℝ) : EReal) := by
  rw [Ideal.div_coe hy, ← EReal.coe_mul, mul_one_div]

theorem kerRow_coe [Nonempty ι] (σ : ℝ) (θ : ι → ℝ) (j : ι) :
    kerRow (σ : EReal) (fun k => (θ k : EReal)) j = ((soft σ θ j : ℝ) : EReal) := by
  unfold kerRow soft
  simp only [kerTerm_coe]
  rw [← coe_sum, div_coe_coe _ _ (sum_exp_pos _).ne']

/-! ## The shifted softmax form -/

/-- `max (a - t) (-(a - t))`: the distance. -/
def refDist (a t : EReal) : EReal := max (a - t) (-(a - t))

/-- Minus the distance, minus the row's largest distance. -/
def refShift (a : EReal) (τ : ι → EReal) (j : ι) : EReal :=
  -(refDist a (τ j)) - Finset.univ.fold max ⊥ (fun k => refDist a (τ k))

/-- The exponential of the shifted value less the row's largest shifted value. -/
def refExp (a : EReal) (τ : ι → EReal) (j : ι) : EReal :=
  Ideal.exp (refShift a τ j - max ⊥ (Finset.univ.fold max ⊥ (fun k => refShift a τ k)))

/-- The shifted softmax form: that exponential over zero plus the sum of its row. -/
def refRow (a : EReal) (τ : ι → EReal) (j : ι) : EReal := Ideal.div (refExp a τ j) (0 + ∑ k, refExp a τ k)

theorem refDist_coe (σ t : ℝ) : refDist (σ : EReal) (t : EReal) = ((|σ - t| : ℝ) : EReal) := by
  unfold refDist
  rw [← EReal.coe_sub, ← EReal.coe_neg, ← coe_max, abs_eq_max_neg]

theorem refRow_coe [Nonempty ι] (σ : ℝ) (θ : ι → ℝ) (j : ι) :
    refRow (σ : EReal) (fun k => (θ k : EReal)) j = ((soft σ θ j : ℝ) : EReal) := by
  obtain ⟨M, hM⟩ := fold_max_bot_coe (fun k => |σ - θ k|)
  have hshift : ∀ k, refShift (σ : EReal) (fun k => (θ k : EReal)) k = ((-|σ - θ k| - M : ℝ) : EReal) := by
    intro k
    unfold refShift
    simp only [refDist_coe]
    rw [hM, ← EReal.coe_neg, ← EReal.coe_sub]
  obtain ⟨M', hM'⟩ := fold_max_bot_coe (fun k => -|σ - θ k| - M)
  have hexp : ∀ k, refExp (σ : EReal) (fun k => (θ k : EReal)) k
      = ((Real.exp (-|σ - θ k|) * Real.exp (-M - M') : ℝ) : EReal) := by
    intro k
    unfold refExp
    simp only [hshift]
    rw [hM', max_eq_right bot_le, ← EReal.coe_sub, Ideal.exp_coe, ← Real.exp_add]
    congr 2
    ring
  unfold refRow soft
  simp only [hexp]
  rw [zero_add, ← coe_sum, ← Finset.sum_mul,
    div_coe_coe _ _ (mul_pos (sum_exp_pos _) (Real.exp_pos _)).ne',
    mul_div_mul_right _ _ (Real.exp_pos _).ne']

end Cert.LibSoftRow

end
-- ==== Proof.PowerSoftmax.lean ====
/-
  Power-interpolated pairwise energies followed by a log-softmax, on the reals and on the extended reals.

  For a row of positive reals `p 0 … p 15` and a real matrix `g` the energy of mode `k` is

      modal k = ∑ j, (if k = j then p k else (p k)^(g k j) · (p j)^(1 - g k j)),

  the score is `s k = -(1/4) · modal k`, and the result is the log-softmax `s i - log ∑ k, e^(s k)`.

  Two spellings of this value on the extended reals are shown to give that real number when the row is positive and real and
  the matrix is real:

  * the exponential form `e^(g·log a + (1 - g)·log b)` of `a^g · b^(1 - g)` (for `a, b > 0`: `a^g = e^(g · log a)` and the
    exponential turns the sum into the product), with the log-softmax written `s i - (M + log ∑ k, e^(s k - M))`;
  * the power form `a^g · b^(1 - g)`, the scale `-(1 / √16)`, and the log-softmax written
    `(s i - M) - log (0 + ∑ k, e^(s k - M))`.

  In both, `M` is the maximum of the scores taken from `-∞`; what is used of it is only that it is a real number: for ANY real `M`,
  `log ∑ k, e^(s k - M) = log (∑ k, e^(s k)) - M`, because `e^(s k - M) = e^(s k) · e^(-M)` and the sum is positive.
  On the extended reals none of this holds at infinities or for a nonpositive base: the hypotheses are what is used.
-/
import Idealize.ShloMosaic.PureOps.Ideal
import proofs.«153629_j81707457839189_2_alg».proof.Proof.LibSoftRow

noncomputable section

open scoped BigOperators

namespace Cert.PowerSoftmax

open Idealize.ShloMosaic Cert.LibSoftRow

/-! ## The float constants of the two programs, as the extended reals their patterns denote -/

abbrev eLit : EReal := Ideal.ofBits .f32 0x402DF854#32
abbrev oneLit : EReal := Ideal.ofBits .f32 0x3F800000#32
abbrev zeroLit : EReal := Ideal.ofBits .f32 0x00000000#32
abbrev posInfLit : EReal := Ideal.ofBits .f32 0x7F800000#32
abbrev negInfLit : EReal := Ideal.ofBits .f32 0xFF800000#32
abbrev negQuarterLit : EReal := Ideal.ofBits .f32 0xBE800000#32
abbrev sixteenLit : EReal := Ideal.ofBits .f32 0x41800000#32

theorem oneLit_eq : oneLit = ((1 : ℝ) : EReal) := by
  simp [Ideal.ofBits, Ideal.ieee, -EReal.coe_mul]; norm_num
theorem zeroLit_eq : zeroLit = 0 := by
  simp [Ideal.ofBits, Ideal.ieee]
theorem posInfLit_eq : posInfLit = ⊤ := by
  simp [Ideal.ofBits, Ideal.ieee]
theorem negInfLit_eq : negInfLit = ⊥ := by
  simp [Ideal.ofBits, Ideal.ieee]
theorem negQuarterLit_eq : negQuarterLit = ((-(1 / 4) : ℝ) : EReal) := by
  simp [Ideal.ofBits, Ideal.ieee, -EReal.coe_mul]; norm_num
theorem sixteenLit_eq : sixteenLit = ((16 : ℝ) : EReal) := by
  simp [Ideal.ofBits, Ideal.ieee, -EReal.coe_mul]; norm_num
/-- The constant `e` of both programs is some real number (which one is never used). -/
theorem eLit_real : ∃ r : ℝ, eLit = (r : EReal) := by
  simp [Ideal.ofBits, Ideal.ieee, -EReal.coe_mul]

/-- The positive base of the powers, from one entry `v` of the data, its column's minimum, and the column's scale and offset:
    `(1 + w) · max (v - vmin + e) e + b`. -/
def phiAt (v vmin w b : EReal) : EReal := (oneLit + w) * max (v - vmin + eLit) eLit + b

/-! ## The value on the reals -/

/-- The energy of mode `k`: the diagonal term is `p k` itself, the others the interpolated products. -/
def modal (p : Fin 16 → ℝ) (g : Fin 16 → Fin 16 → ℝ) (k : Fin 16) : ℝ :=
  ∑ j : Fin 16, if k = j then p k else p k ^ g k j * p j ^ (1 - g k j)

/-- The score of mode `k`. -/
def score (p : Fin 16 → ℝ) (g : Fin 16 → Fin 16 → ℝ) (k : Fin 16) : ℝ := -(1 / 4) * modal p g k

/-- The log-softmax of the scores. -/
def logit (p : Fin 16 → ℝ) (g : Fin 16 → Fin 16 → ℝ) (i : Fin 16) : ℝ :=
  score p g i - Real.log (∑ k, Real.exp (score p g k))

/-! ## The exponential spelling on the extended reals -/

def expModal (phi : Fin 16 → EReal) (G : Fin 16 → Fin 16 → EReal) (i : Fin 16) : EReal :=
  ∑ j : Fin 16, if j = i then phi i else
    Ideal.exp (G j i * Ideal.log (phi i) + (oneLit - G j i) * Ideal.log (phi j))

def expScore (phi : Fin 16 → EReal) (G : Fin 16 → Fin 16 → EReal) (k : Fin 16) : EReal :=
  negQuarterLit * expModal phi G k

def expMax (phi : Fin 16 → EReal) (G : Fin 16 → Fin 16 → EReal) : EReal :=
  (Finset.univ : Finset (Fin 16)).fold max negInfLit (expScore phi G)

def expLogit (phi : Fin 16 → EReal) (G : Fin 16 → Fin 16 → EReal) (i : Fin 16) : EReal :=
  expScore phi G i - (expMax phi G + Ideal.log (∑ k : Fin 16, Ideal.exp (expScore phi G k - expMax phi G)))

/-! ## The power spelling on the extended reals -/

def powModal (phi : Fin 16 → EReal) (G : Fin 16 → Fin 16 → EReal) (i : Fin 16) : EReal :=
  zeroLit + ∑ j : Fin 16, if i = j then phi i else
    Ideal.pow (phi i) (G i j) * Ideal.pow (phi j) (oneLit - G i j)

def powScore (phi : Fin 16 → EReal) (G : Fin 16 → Fin 16 → EReal) (k : Fin 16) : EReal :=
  (-(Ideal.div oneLit (Ideal.sqrt sixteenLit))) * powModal phi G k

def powMax (phi : Fin 16 → EReal) (G : Fin 16 → Fin 16 → EReal) : EReal :=
  max negInfLit ((Finset.univ : Finset (Fin 16)).fold max negInfLit (powScore phi G))

def powLogit (phi : Fin 16 → EReal) (G : Fin 16 → Fin 16 → EReal) (i : Fin 16) : EReal :=
  (powScore phi G i - powMax phi G)
    - Ideal.log (zeroLit + ∑ k : Fin 16, Ideal.exp (powScore phi G k - powMax phi G))

end Cert.PowerSoftmax

end
-- ==== Proof.RefSide.lean ====
/-
  The reference program's result read at an index.

  Each operation of the reference is a function of the program's four arguments (the data, the scales, the offsets and the
  exponents), read at an index from its operands by the generated module imported first; the column minimum and the row maximum
  are folds over one axis. Here these readings are composed: the positive base at a row and a column is
  `(1 + w) · max (v - vmin + e) e + b`; the exponent matrix at a pair of modes is the strict upper triangle plus its transpose;
  and a row of the result is the log-softmax of the scores `-(1/√16) · ∑ j, (if k = j then p k else (p k)^(g k j) · (p j)^(1 - g k j))`,
  in the power spelling, of that row of the base and that matrix; the second result is its exponential.
-/
import proofs.«153629_j81707457839189_2_alg».proof.Proof.RefRead
import proofs.«153629_j81707457839189_2_alg».proof.Proof.PowerSoftmax
import Idealize.ShloMosaic.Lib.ValueIdx
import Idealize.ShloMosaic.PureOps.Ideal.Laws
import Idealize.ShloMosaic.PureOps.Reduce

noncomputable section

open scoped BigOperators

namespace Cert.RefSide

open Idealize.ShloMosaic Idealize.ShloMosaic.ValueIdx Cert.PowerSoftmax Cert.ReferenceIdeal Cert.ReferenceIdeal.ReadP

variable [Cert.ReferenceIdeal.Facts]

variable (x0 : FVec Ideal S500000x16 .f32) (x1 x2 : FVec Ideal S16 .f32) (x3 : FVec Ideal S16x16 .f32)

/-! ## The positive base -/

theorem phi_apply (n : Fin 500000) (j : Fin 16) :
    val_main_v17 (F := Ideal) x0 x1 x2 (ix2 n j)
      = phiAt (x0 (ix2 n j)) (val_main_v2 (F := Ideal) x0 (ix1 j)) (x1 (ix1 j)) (x2 (ix1 j)) := by
  have e1 : idx_main_v12 (idx_main_v13 (ix2 n j)) = ix1 j :=
    funext fun a => Fin.ext (by match a with | ⟨0, _⟩ => rfl)
  have e2 : idx_main_v3 (idx_main_v4 (ix2 n j)) = ix1 j :=
    funext fun a => Fin.ext (by match a with | ⟨0, _⟩ => rfl)
  have e3 : idx_main_v15 (idx_main_v16 (ix2 n j)) = ix1 j :=
    funext fun a => Fin.ext (by match a with | ⟨0, _⟩ => rfl)
  rw [val_main_v17_apply, val_main_v14_apply, val_main_v13_apply, val_main_v12_apply, val_main_v11_apply, val_main_v10_apply,
    val_main_cst_4_apply, val_main_v9_apply, val_main_v7_apply, val_main_v5_apply, val_main_v4_apply, val_main_v3_apply,
    val_main_v6_apply, val_main_cst_2_apply, val_main_v8_apply, val_main_cst_3_apply, val_main_v16_apply, val_main_v15_apply,
    e1, e2, e3]
  simp only [Ideal.addf_def, Ideal.mulf_def, Ideal.subf_def, Ideal.maximumf_def, Ideal.ofBits_def]
  rfl

/-! ## The exponent matrix -/

theorem G_apply (a b : Fin 16) :
    val_main_v20 (F := Ideal) x3 (ix2 a b)
      = val_main_v18 (F := Ideal) x3 (ix2 a b) + val_main_v18 (F := Ideal) x3 (ix2 b a) := by
  have e : idx_main_v19 (ix2 a b) = ix2 b a :=
    funext fun c => Fin.ext (by match c with | ⟨0, _⟩ => rfl | ⟨1, _⟩ => rfl)
  rw [val_main_v20_apply, val_main_v19_apply, e]
  rfl

/-- The strict upper triangle of a real matrix is real: each entry is the zero constant or an entry of the matrix. -/
theorem triu_real (h3 : ∀ i, ∃ r : ℝ, x3 i = (r : EReal)) (a b : Fin 16) :
    ∃ r : ℝ, val_main_v18 (F := Ideal) x3 (ix2 a b) = (r : EReal) := by
  rw [val_main_v18_apply]
  rcases BitVec.eq_zero_or_eq_one (val_main_call0_v4 (F := Ideal) (ix2 a b)) with h | h
  · rw [h, select_zero]; exact h3 _
  · rw [h, select_one, val_main_call0_v5_apply, val_main_call0_cst_apply]
    exact ⟨0, by rw [Ideal.ofBits_def, Ideal.ofBits_zero_f32]; rfl⟩

/-! ## The identity mask -/

/-- Two coordinates below 16, as 32-bit words, are equal exactly when the coordinates are. -/
theorem word_eq_iff (k j : Fin 16) : BitVec.ofNat 32 k.val = BitVec.ofNat 32 j.val ↔ k = j := by
  constructor
  · intro h
    have h' := congrArg BitVec.toNat h
    simp only [BitVec.toNat_ofNat] at h'
    have hk := k.isLt
    have hj := j.isLt
    exact Fin.ext (by omega)
  · intro h; rw [h]

/-- The mask "row coordinate plus zero equals column coordinate" at `(k, j)` is the bit of `k = j`. -/
theorem eye_apply (k j : Fin 16) : val_main_v38 (F := Ideal) (ix2 k j) = if k = j then 1#1 else 0#1 := by
  rw [val_main_v38_apply, val_main_v37_apply, val_main_v34_apply, val_main_v36_apply, val_main_c_apply, val_main_v35_apply]
  show IntOp.cmpi .eq (IntOp.addi (BitVec.ofNat 32 k.val) 0#32) (BitVec.ofNat 32 j.val) = _
  by_cases h : k = j
  · subst h; simp [IntOp.cmpi, IntOp.addi]
  · have hne : (BitVec.ofNat 32 k.val == BitVec.ofNat 32 j.val) = false :=
      beq_eq_false_iff_ne.2 fun e => h ((word_eq_iff k j).1 e)
    simp only [IntOp.cmpi, IntOp.addi, BitVec.add_zero, hne, if_neg h]
    rfl

/-- A select on the mask broadcast along the rows is the `if` on `k = j`. -/
theorem where_eye {α : Type} (n : Fin 500000) (k j : Fin 16) (A B : α) :
    Scalar.select (val_main_call1_v0 (F := Ideal) (ix3 n k j)) A B = if k = j then A else B := by
  have e : idx_main_call1_v0 (ix3 n k j) = ix2 k j :=
    funext fun a => Fin.ext (by match a with | ⟨0, _⟩ => rfl | ⟨1, _⟩ => rfl)
  rw [val_main_call1_v0_apply, e, eye_apply]
  by_cases h : k = j
  · rw [if_pos h, if_pos h, select_one]
  · rw [if_neg h, if_neg h, select_zero]

/-! ## The energies, the scores and their maximum -/

/-- The pairwise term at row `n` and modes `(k, j)`: the base itself on the diagonal, the interpolated product elsewhere. -/
theorem pair_apply (n : Fin 500000) (k j : Fin 16) :
    val_main_v40 (F := Ideal) x0 x1 x2 x3 (ix3 n k j)
      = if k = j then val_main_v17 (F := Ideal) x0 x1 x2 (ix2 n k)
        else Ideal.pow (val_main_v17 (F := Ideal) x0 x1 x2 (ix2 n k)) (val_main_v20 (F := Ideal) x3 (ix2 k j))
          * Ideal.pow (val_main_v17 (F := Ideal) x0 x1 x2 (ix2 n j)) (oneLit - val_main_v20 (F := Ideal) x3 (ix2 k j)) := by
  have ea : idx_main_v39 (idx_main_call1_v1 (ix3 n k j)) = ix2 n k :=
    funext fun a => Fin.ext (by match a with | ⟨0, _⟩ => rfl | ⟨1, _⟩ => rfl)
  have eb : idx_main_v21 (idx_main_v23 (ix3 n k j)) = ix2 n k :=
    funext fun a => Fin.ext (by match a with | ⟨0, _⟩ => rfl | ⟨1, _⟩ => rfl)
  have ec : idx_main_v22 (idx_main_v24 (ix3 n k j)) = ix2 k j :=
    funext fun a => Fin.ext (by match a with | ⟨0, _⟩ => rfl | ⟨1, _⟩ => rfl)
  have ed : idx_main_v26 (idx_main_v30 (ix3 n k j)) = ix2 n j :=
    funext fun a => Fin.ext (by match a with | ⟨0, _⟩ => rfl | ⟨1, _⟩ => rfl)
  have ee : idx_main_v29 (idx_main_v31 (ix3 n k j)) = ix2 k j :=
    funext fun a => Fin.ext (by match a with | ⟨0, _⟩ => rfl | ⟨1, _⟩ => rfl)
  rw [val_main_v40_apply, where_eye, val_main_call1_v1_apply, val_main_v39_apply, ea, val_main_v33_apply,
    val_main_v25_apply, val_main_v23_apply, val_main_v21_apply, eb, val_main_v24_apply, val_main_v22_apply, ec,
    val_main_v32_apply, val_main_v30_apply, val_main_v26_apply, ed, val_main_v31_apply, val_main_v29_apply, ee,
    val_main_v28_apply, val_main_v27_apply, val_main_cst_5_apply]
  simp only [Ideal.mulf_def, Ideal.subf_def, Ideal.hostPowf_def, Ideal.ofBits_def]

/-- The energy of mode `k` at row `n`. -/
theorem modal_apply (n : Fin 500000) (k : Fin 16) :
    val_main_v41 (F := Ideal) x0 x1 x2 x3 (ix2 n k)
      = powModal (fun j => val_main_v17 (F := Ideal) x0 x1 x2 (ix2 n j)) (fun a b => val_main_v20 (F := Ideal) x3 (ix2 a b)) k := by
  rw [val_main_v41_apply, val_main_cst_6_apply, Ideal.ofBits_def]
  unfold powModal
  refine congrArg (zeroLit + ·) (Finset.sum_congr rfl fun j _ => ?_)
  have e : idx_main_v41 (ix2 n k) j = ix3 n k j :=
    funext fun a => Fin.ext (by match a with | ⟨0, _⟩ => rfl | ⟨1, _⟩ => rfl | ⟨2, _⟩ => rfl)
  rw [e, pair_apply]

/-- The score of mode `k` at row `n`. -/
theorem score_apply (n : Fin 500000) (k : Fin 16) :
    val_main_v44 (F := Ideal) x0 x1 x2 x3 (ix2 n k)
      = powScore (fun j => val_main_v17 (F := Ideal) x0 x1 x2 (ix2 n j)) (fun a b => val_main_v20 (F := Ideal) x3 (ix2 a b)) k := by
  rw [val_main_v44_apply, modal_apply, val_main_v43_apply, val_main_v42_apply, val_main_v1_apply, val_main_cst_0_apply,
    val_main_v0_apply, val_main_cst_apply]
  simp only [Ideal.mulf_def, Ideal.hostNegf_def, Ideal.negf_def, Ideal.hostDivf_def, Ideal.hostUnary_sqrt_def, Ideal.ofBits_def]
  rfl

/-- A maximum over the columns of one row, from the constant `-∞`, is the fold of `max` over the row's sixteen entries. -/
theorem rowMax_fold (y : FVec Ideal S500000x16 .f32) (n : Fin 500000) :
    Host.reduce FloatOps.maximumf y (val_main_call2_cst (F := Ideal)) Gen.reducesTo_S500000x16_S500000_d1 Gen.h_S_ (ix1 n)
      = (Finset.univ : Finset (Fin 16)).fold max negInfLit (fun k => y (ix2 n k)) := by
  refine (Host.reduce_eq_fold_single FloatOps.maximumf y _ Gen.reducesTo_S500000x16_S500000_d1 (by decide) Gen.h_S_ (ix1 n)).trans ?_
  refine Finset.fold_congr fun k _ => ?_
  exact congrArg y (funext fun c => Fin.ext (by match c with | ⟨0, _⟩ => rfl | ⟨1, _⟩ => rfl))

/-- The maximum of the scores of row `n`, taken from `-∞` twice as the program does. -/
theorem max_apply (n : Fin 500000) :
    val_main_call2_v2 (F := Ideal) x0 x1 x2 x3 (ix1 n)
      = powMax (fun j => val_main_v17 (F := Ideal) x0 x1 x2 (ix2 n j)) (fun a b => val_main_v20 (F := Ideal) x3 (ix2 a b)) := by
  rw [val_main_call2_v2_apply, val_main_call2_v1_apply, val_main_call2_cst_0_apply]
  unfold val_main_call2_v0 powMax
  rw [rowMax_fold]
  simp only [Ideal.maximumf_def, Ideal.ofBits_def]
  refine congrArg (max negInfLit) (Finset.fold_congr fun k _ => ?_)
  exact score_apply x0 x1 x2 x3 n k

/-- The score of mode `k` less the row's maximum. -/
theorem shifted_apply (n : Fin 500000) (k : Fin 16) :
    val_main_call2_v5 (F := Ideal) x0 x1 x2 x3 (ix2 n k)
      = powScore (fun j => val_main_v17 (F := Ideal) x0 x1 x2 (ix2 n j)) (fun a b => val_main_v20 (F := Ideal) x3 (ix2 a b)) k
        - powMax (fun j => val_main_v17 (F := Ideal) x0 x1 x2 (ix2 n j)) (fun a b => val_main_v20 (F := Ideal) x3 (ix2 a b)) := by
  have e : idx_main_call2_v3 (idx_main_call2_v4 (ix2 n k)) = ix1 n :=
    funext fun a => Fin.ext (by match a with | ⟨0, _⟩ => rfl)
  rw [val_main_call2_v5_apply, val_main_call2_v4_apply, val_main_call2_v3_apply, e, max_apply, score_apply]
  rfl

/-! ## The result -/

theorem logits_apply (n : Fin 500000) (i : Fin 16) :
    val_main_v45 (F := Ideal) x0 x1 x2 x3 (ix2 n i)
      = powLogit (fun j => val_main_v17 (F := Ideal) x0 x1 x2 (ix2 n j)) (fun a b => val_main_v20 (F := Ideal) x3 (ix2 a b)) i := by
  have e : idx_main_call2_v8 (idx_main_call2_v10 (ix2 n i)) = ix1 n :=
    funext fun a => Fin.ext (by match a with | ⟨0, _⟩ => rfl)
  rw [val_main_v45_apply, shifted_apply, val_main_call2_v10_apply, val_main_call2_v9_apply, val_main_call2_v8_apply, e,
    val_main_call2_v7_apply, val_main_call2_cst_1_apply]
  unfold powLogit
  simp only [Ideal.subf_def, Ideal.hostUnary_log_def, Ideal.ofBits_def]
  refine congrArg (fun s => _ - Ideal.log (zeroLit + s)) (Finset.sum_congr rfl fun k _ => ?_)
  have e' : idx_main_call2_v7 (ix1 n) k = ix2 n k :=
    funext fun a => Fin.ext (by match a with | ⟨0, _⟩ => rfl | ⟨1, _⟩ => rfl)
  rw [e', val_main_call2_v6_apply, shifted_apply]
  rfl

theorem alphas_apply (n : Fin 500000) (i : Fin 16) :
    val_main_v46 (F := Ideal) x0 x1 x2 x3 (ix2 n i) = Ideal.exp (val_main_v45 (F := Ideal) x0 x1 x2 x3 (ix2 n i)) := by
  rw [val_main_v46_apply]; rfl

end Cert.RefSide

end
-- ==== Proof.PreSide.lean ====
/-
  The precondition read back. The precondition is a conjunction of five "for all elements" facts about the four inputs
  `V : [500000, 16]`, `w, b : [16]`, `G : [16, 16]`: `|x| < +∞` for every element `x` of each input, and `φ > 0` at every
  `(n, j)`, where `φ = (1 + w j) · max (V n j − m j + e) e + b j` and `m j` is the minimum of column `j` of `V`, taken from `+∞`.

  On the extended reals `|x| = max x (−x)`, and `max x (−x) < +∞` excludes both infinities, so every element is a real number;
  a conjunction of one-bit words is 1 only if each is, and a reduction by `and` over all axes that gives 1 met 1 at every index.
  The broadcasts of a `[16]` vector to `[1, 16]` and then to `[500000, 16]` read, at `(n, j)`, the vector's element `j`; the column
  minima are kept as one named vector throughout and never opened here.

  Separately: a column's minimum is a fold of `min` from `+∞` over the 500000 (a nonempty set of) row coordinates, and the
  minimum of a nonempty finite family of reals, taken from `+∞`, is a real: by induction on the nonempty finite set, a singleton
  giving `min r ⊤ = r` and an inserted element `min r m`.
-/
import proofs.«153629_j81707457839189_2_alg».proof.Pre_finite_inputs
import proofs.«153629_j81707457839189_2_alg».proof.Proof.PowerSoftmax
import Idealize.ShloMosaic.Lib.ValueIdx
import Idealize.ShloMosaic.Lib.ReduceAll
import Idealize.ShloMosaic.Lib.Pipeline.Value
import Idealize.ShloMosaic.PureOps.Ideal.Laws

noncomputable section

namespace Cert.PreSide

open Idealize.ShloMosaic Idealize.ShloMosaic.ValueIdx Cert.PowerSoftmax Cert.Pre_finite_inputs

variable [Cert.Pre_finite_inputs.Facts]

/-- The scalar shape has one index. -/
instance : Subsingleton S_.Idx := ⟨fun a b => funext fun d => d.elim0⟩

/-- The column minima, as the precondition's own first operation spells them. -/
def colMin (x0 : FVec Ideal S500000x16 .f32) : FVec Ideal S16 .f32 :=
  Host.reduce FloatOps.minimumf x0 (constant (F := Ideal) S_ .f32 0x7F800000#32) Facts.reducesTo_S500000x16_S16_d0 Facts.h_S_

/-! ## Words and elements -/

/-- A one-bit word made from a Boolean is 1 exactly when the Boolean is true. -/
theorem ofBool_eq_one (b : Bool) : BitVec.ofBool b = 1#1 ↔ b = true := by cases b <;> decide

/-- A conjunction of two scalar bits, read at the one index, is 1 only if both are. -/
theorem andi_ix0 (a b : IVec S_ 1) (h : andi a b ix0 = 1#1) : a ix0 = 1#1 ∧ b ix0 = 1#1 :=
  IntOp.andi_eq_one.1 h

/-- An extended real whose absolute value `max x (-x)` is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One element of `|x| < +∞`, computed as the precondition computes it, says that element of `x` is a real. -/
theorem real_of_cmp {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  have h' : BitVec.ofBool (decide (max (x i) (-(x i)) < posInfLit)) = 1#1 := h
  rw [ofBool_eq_one, decide_eq_true_eq, posInfLit_eq] at h'
  exact real_of_abs_lt_top _ h'

/-- A vector over the columns, broadcast first to one row and then down all rows, reads at `(n, j)` its element `j`. -/
theorem bcast_col_apply {α : Type} (y : S16.Idx → α) (n : Fin 500000) (j : Fin 16) :
    broadcastInDim S500000x16 ![0, 1] Facts.bcast_S1x16_S500000x16_0_1
      (broadcastInDim S1x16 ![1] Facts.bcast_S16_S1x16_1 y) (ix2 n j) = y (ix1 j) := by
  refine (broadcastInDim_apply _ Facts.bcast_S1x16_S500000x16_0_1 _ (ix2 n j) (ix2 (0 : Fin 1) j) (fun a => match a with
    | ⟨0, _⟩ => by show 0 = if (1 : Nat) = 1 then 0 else n.val; rw [if_pos rfl]
    | ⟨1, _⟩ => by show j.val = if (16 : Nat) = 1 then 0 else j.val; rw [if_neg (by decide)])).trans ?_
  exact broadcastInDim_apply _ Facts.bcast_S16_S1x16_1 y (ix2 (0 : Fin 1) j) (ix1 j) (fun a => match a with
    | ⟨0, _⟩ => by show j.val = if (16 : Nat) = 1 then 0 else j.val; rw [if_neg (by decide)])

/-- A comparison `a > b` of extended reals that came out 1 says `b < a`. -/
theorem lt_of_cmp_ogt (a b : EReal) (h : Ideal.cmp .ogt a b = 1#1) : b < a := by
  have h' : BitVec.ofBool (decide (b < a)) = 1#1 := h
  rwa [ofBool_eq_one, decide_eq_true_eq] at h'

/-- The base `(1 + w)·max(V − vmin + e, e) + b` as the precondition computes it from a vector `v` of column values,
    read at `(n, j)`: the broadcasts read column `j` of `v`, of `w` and of `b`, and the constants their values. -/
theorem phi_apply (x0 : FVec Ideal S500000x16 .f32) (x1 x2 v : FVec Ideal S16 .f32) (n : Fin 500000) (j : Fin 16) :
    (addf
      (mulf
        (broadcastInDim S500000x16 ![0, 1] Facts.bcast_S1x16_S500000x16_0_1
          (broadcastInDim S1x16 ![1] Facts.bcast_S16_S1x16_1
            (addf (broadcastInDim S16 ![] Facts.bcast_S_S16 (constant S_ .f32 0x3F800000#32)) x1)))
        (maximumf
          (addf
            (subf x0
              (broadcastInDim S500000x16 ![0, 1] Facts.bcast_S1x16_S500000x16_0_1
                (broadcastInDim S1x16 ![1] Facts.bcast_S16_S1x16_1 v)))
            (broadcastInDim S500000x16 ![] Facts.bcast_S_S500000x16 (constant S_ .f32 0x402DF854#32)))
          (broadcastInDim S500000x16 ![] Facts.bcast_S_S500000x16 (constant S_ .f32 0x402DF854#32))))
      (broadcastInDim S500000x16 ![0, 1] Facts.bcast_S1x16_S500000x16_0_1
        (broadcastInDim S1x16 ![1] Facts.bcast_S16_S1x16_1 x2)) : FVec Ideal S500000x16 .f32) (ix2 n j)
      = phiAt (x0 (ix2 n j)) (v (ix1 j)) (x1 (ix1 j)) (x2 (ix1 j)) := by
  have r1 := bcast_col_apply
    (addf (broadcastInDim S16 ![] Facts.bcast_S_S16 (constant (F := Ideal) S_ .f32 0x3F800000#32)) x1) n j
  have r2 := bcast_col_apply v n j
  have r3 := bcast_col_apply x2 n j
  show _ * max (x0 (ix2 n j) - _ + eLit) eLit + _ = _
  rw [r1, r2, r3]
  rfl

/-! ## The precondition decoded -/

/-- THE PRECONDITION DECODED: every element of the four inputs is a real number, and the base `φ` is positive at every `(n, j)`. -/
theorem pre_decode (x0 : FVec Ideal S500000x16 .f32) (x1 x2 : FVec Ideal S16 .f32) (x3 : FVec Ideal S16x16 .f32)
    (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal))
      ∧ ∀ (n : Fin 500000) (j : Fin 16),
          (0 : EReal) < phiAt (x0 (ix2 n j)) (colMin x0 (ix1 j)) (x1 (ix1 j)) (x2 (ix1 j)) := by
  have e := congrFun h ix0
  dsimp only [fn, fn_part1, fn_part2] at e
  obtain ⟨e, e4⟩ := andi_ix0 _ _ e
  obtain ⟨e, e3⟩ := andi_ix0 _ _ e
  obtain ⟨e, e2⟩ := andi_ix0 _ _ e
  obtain ⟨e0, e1⟩ := andi_ix0 _ _ e
  refine ⟨fun i => ?_, fun i => ?_, fun i => ?_, fun i => ?_, fun n j => ?_⟩
  · exact real_of_cmp x0 _ i (Host.reduce_andi_all _ _ _ _ ix0 e0 i)
  · exact real_of_cmp x1 _ i (Host.reduce_andi_all _ _ _ _ ix0 e1 i)
  · exact real_of_cmp x2 _ i (Host.reduce_andi_all _ _ _ _ ix0 e2 i)
  · exact real_of_cmp x3 _ i (Host.reduce_andi_all _ _ _ _ ix0 e3 i)
  · have e5 := Host.reduce_andi_all _ _ _ _ ix0 e4 (ix2 n j)
    have hc : Host.reduce FloatOps.minimumf x0 (constant (F := Ideal) S_ .f32 0x7F800000#32)
        Facts.reducesTo_S500000x16_S16_d0 Facts.h_S_ = colMin x0 := rfl
    rw [hc] at e5
    generalize colMin x0 = v at e5 ⊢
    rw [← phi_apply x0 x1 x2 v n j]
    exact lt_of_eq_of_lt zeroLit_eq.symm (lt_of_cmp_ogt _ _ e5)

/-! ## The column minima of a real array are real -/

/-- The embedding of the reals into the extended reals is monotone, so it commutes with `min`. -/
theorem ereal_coe_min (x y : ℝ) : ((min x y : ℝ) : EReal) = min (x : EReal) (y : EReal) :=
  EReal.coe_strictMono.monotone.map_min

/-- The minimum, taken from `+∞`, of a nonempty finite family of reals is a real. -/
theorem fold_min_top_real {ι : Type} (f : ι → EReal) (hf : ∀ k, ∃ r : ℝ, f k = (r : EReal)) (s : Finset ι) (hs : s.Nonempty) :
    ∃ r : ℝ, s.fold (FloatOps.minimumf (F := Ideal) (φ := .f32)) (⊤ : EReal) f = (r : EReal) := by
  induction hs using Finset.Nonempty.cons_induction with
  | singleton a =>
    obtain ⟨r, hr⟩ := hf a
    exact ⟨r, by rw [Finset.fold_singleton, hr]; exact min_eq_left le_top⟩
  | cons a s ha hs ih =>
    obtain ⟨r, hr⟩ := hf a
    obtain ⟨m, hm⟩ := ih
    exact ⟨min r m, by rw [Finset.fold_cons, hm, hr, ereal_coe_min]; rfl⟩

/-- Each column minimum of an array of reals is a real number. -/
theorem colMin_real (x0 : FVec Ideal S500000x16 .f32) (hx0 : ∀ i, ∃ r : ℝ, x0 i = (r : EReal)) (j : Fin 16) :
    ∃ r : ℝ, colMin x0 (ix1 j) = (r : EReal) := by
  have hR : S500000x16.Reduces [0] S16 := by decide
  haveI : Nonempty (Fin (S500000x16.size 0)) := ⟨⟨0, by decide⟩⟩
  have hfold := Host.reduce_eq_fold_single (FloatOps.minimumf (F := Ideal) (φ := .f32)) x0
    (constant (F := Ideal) S_ .f32 0x7F800000#32) Facts.reducesTo_S500000x16_S16_d0 hR Facts.h_S_ (ix1 j)
  have hinit : constant (F := Ideal) S_ .f32 0x7F800000#32 (Shape.Idx.first Facts.h_S_) = (⊤ : EReal) := posInfLit_eq
  rw [hinit] at hfold
  obtain ⟨r, hr⟩ := fold_min_top_real (x0 ∘ hR.lift (ix1 j)) (fun k => hx0 _) Finset.univ Finset.univ_nonempty
  exact ⟨r, hfold.trans hr⟩

end Cert.PreSide

end
-- ==== Proof.KerInputs.lean ====
/-
  The kernel program's arrays when its pipelined region is entered, read at an index.

  Before the region the program computes, from its four arguments (the data, the scales, the offsets and the exponents): the column
  minimum of the data; the symmetric exponent matrix (the strict upper triangle plus its transpose); the data transposed to
  sixteen rows and padded on the right with zeros to 507904 columns; and the scales, the offsets and the column minimum as columns.
  Each is read here at an index in terms of the arguments; the exponent matrix is the same function of the exponents as in the
  reference program, and the column minimum is the reference's.
-/
import proofs.«153629_j81707457839189_2_alg».proof.Proof.Gen.KernelIdeal.Frame
import proofs.«153629_j81707457839189_2_alg».proof.Proof.RefRead
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.InputValue

open Cert.KernelIdeal Idealize.ShloMosaic Idealize.ShloMosaic.ValueIdx Idealize.SL.Sem Idealize.ShloMosaic.StableHlo

variable (m : (ℓ : Loc nD τ sig) → Buf (Elt Ideal) ℓ) (c : Dev nD)

/-! ## A vector as a column -/

/-- A vector cast to a one-column matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The arrays as terms over the arguments -/

/-- The scales as a column. -/
theorem V6_eq : (Gen.V m c main_v6 : S16x1.Idx → EReal)
    = shapeCast S16x1 (m ((c.tc : Thread nD τ).loc main_arg1)) Gen.shapeCasts_S16_S16x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The offsets as a column. -/
theorem V7_eq : (Gen.V m c main_v7 : S16x1.Idx → EReal)
    = shapeCast S16x1 (m ((c.tc : Thread nD τ).loc main_arg2)) Gen.shapeCasts_S16_S16x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The column minimum of the data as a column. -/
theorem V8_eq : (Gen.V m c main_v8 : S16x1.Idx → EReal)
    = shapeCast S16x1 (Host.reduce FloatOps.minimumf (m ((c.tc : Thread nD τ).loc main_arg0)) (constant (F := Ideal) S_ .f32 0x7F800000#32)
        Gen.reducesTo_S500000x16_S16_d0 Gen.h_S_) Gen.shapeCasts_S16_S16x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The data transposed, then padded with the zero constant to 507904 columns. -/
theorem V5_eq : (Gen.V m c main_v5 : S16x507904.Idx → EReal)
    = pad S16x507904 ![0, 0] ![0, 7904] ![0, 0]
        (transpose S16x500000 [1, 0] (m ((c.tc : Thread nD τ).loc main_arg0)) Gen.transposes_S500000x16_S16x500000_1_0)
        (sitofp (F := Ideal) .f32 (constantI S_ 32 0#32)) Gen.pads_S16x500000_S16x507904_000_079040 Gen.h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## The arrays at an index -/

/-- The symmetric exponent matrix is the reference's: the strict upper triangle of the exponents plus its transpose. -/
theorem V3_eq : (Gen.V m c main_v3 : S16x16.Idx → EReal)
    = Cert.ReferenceIdeal.ReadP.val_main_v20 (F := Ideal) (m ((c.tc : Thread nD τ).loc main_arg3)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem V8_apply (j : Fin 16) : (Gen.V m c main_v8 : S16x1.Idx → EReal) (ix2 j (0 : Fin 1))
    = Cert.ReferenceIdeal.ReadP.val_main_v2 (F := Ideal) (m ((c.tc : Thread nD τ).loc main_arg0)) (ix1 j) := by
  refine (congrFun (V8_eq m c) (ix2 j (0 : Fin 1))).trans ?_
  refine (shapeCast_a_a1_apply _ Gen.shapeCasts_S16_S16x1 j (0 : Fin 1)).trans ?_
  unfold Cert.ReferenceIdeal.ReadP.val_main_v2 Cert.ReferenceIdeal.ReadP.val_main_cst_1
  rfl

theorem V6_apply (j : Fin 16) : (Gen.V m c main_v6 : S16x1.Idx → EReal) (ix2 j (0 : Fin 1))
    = m ((c.tc : Thread nD τ).loc main_arg1) (ix1 j) :=
  (congrFun (V6_eq m c) (ix2 j (0 : Fin 1))).trans (shapeCast_a_a1_apply _ Gen.shapeCasts_S16_S16x1 j (0 : Fin 1))

theorem V7_apply (j : Fin 16) : (Gen.V m c main_v7 : S16x1.Idx → EReal) (ix2 j (0 : Fin 1))
    = m ((c.tc : Thread nD τ).loc main_arg2) (ix1 j) :=
  (congrFun (V7_eq m c) (ix2 j (0 : Fin 1))).trans (shapeCast_a_a1_apply _ Gen.shapeCasts_S16_S16x1 j (0 : Fin 1))

theorem V5_apply (j : Fin 16) (n : Fin 500000) : (Gen.V m c main_v5 : S16x507904.Idx → EReal) (ix2 j ⟨n.val, by omega⟩)
    = m ((c.tc : Thread nD τ).loc main_arg0) (ix2 n j) := by
  refine (congrFun (V5_eq m c) (ix2 j ⟨n.val, by omega⟩)).trans ?_
  refine (pad_apply_of_inside _ _ _ _ _ Gen.pads_S16x500000_S16x507904_000_079040 Gen.h_S_ _ (ix2 j n) (fun a => ?_)).trans ?_
  · match a with
    | ⟨0, _⟩ => show j.val = 0 + j.val * (0 + 1); omega
    | ⟨1, _⟩ => show n.val = 0 + n.val * (0 + 1); omega
  · exact transpose_ix2_apply _ Gen.transposes_S500000x16_S16x500000_1_0 j n

end Cert.KernelIdeal.InputValue

end
-- ==== Proof.PowerSoftmaxLaws.lean ====
/-
  The two extended-real spellings of the power-interpolated log-softmax give the real value.

  For a positive real row `p` and a real matrix `g`:

  * for `a, b > 0`, `a^γ · b^(1 - γ) = e^(γ · log a + (1 - γ) · log b)`, since `x^y = e^(log x · y)` for `x > 0` and the
    exponential turns a sum into a product; so both spellings of the energy of a mode are the real energy (the exponential
    spelling reads the matrix transposed);
  * `√16 = 4`, so the scale `-(1 / √16)` is `-(1/4)`;
  * the maximum of the sixteen real scores taken from `-∞` is a real number `M`, and for ANY real `M`
    `log ∑ k, e^(s k - M) = log (∑ k, e^(s k)) - M`, because `e^(s k - M) = e^(s k) · e^(-M)`, the sum is positive, and
    `log (e^(-M)) = -M`; hence `s i - (M + log ∑ e^(s k - M))` and `(s i - M) - log ∑ e^(s k - M)` are both
    `s i - log ∑ e^(s k)`.
-/
import proofs.«153629_j81707457839189_2_alg».proof.Proof.PowerSoftmax

noncomputable section

open scoped BigOperators

namespace Cert.PowerSoftmax

open Idealize.ShloMosaic Cert.LibSoftRow

/-! ## Real lemmas -/

/-- For any real `M`, `log ∑ k, e^(s k - M) = log (∑ k, e^(s k)) - M`. -/
theorem log_sum_exp_sub (s : Fin 16 → ℝ) (M : ℝ) :
    Real.log (∑ k, Real.exp (s k - M)) = Real.log (∑ k, Real.exp (s k)) - M := by
  have h : ∀ k, Real.exp (s k - M) = Real.exp (s k) * Real.exp (-M) := by
    intro k
    rw [← Real.exp_add, sub_eq_add_neg]
  simp only [h]
  rw [← Finset.sum_mul, Real.log_mul (sum_exp_pos s).ne' (Real.exp_pos _).ne', Real.log_exp]
  ring

/-- For positive bases, `a^γ · b^(1 - γ) = e^(γ · log a + (1 - γ) · log b)`. -/
theorem rpow_mul_rpow_eq_exp (a b γ : ℝ) (ha : 0 < a) (hb : 0 < b) :
    a ^ γ * b ^ (1 - γ) = Real.exp (γ * Real.log a + (1 - γ) * Real.log b) := by
  rw [Real.rpow_def_of_pos ha, Real.rpow_def_of_pos hb, ← Real.exp_add]
  congr 1
  ring

/-- `√16 = 4`. -/
theorem sqrt_sixteen : Real.sqrt 16 = 4 := by
  rw [show (16 : ℝ) = 4 ^ 2 by norm_num, Real.sqrt_sq (by norm_num)]

/-! ## The energies -/

theorem expModal_coe (p : Fin 16 → ℝ) (hp : ∀ j, 0 < p j) (g : Fin 16 → Fin 16 → ℝ) (i : Fin 16) :
    expModal (fun j => (p j : EReal)) (fun a b => (g a b : EReal)) i
      = ((modal p (fun a b => g b a) i : ℝ) : EReal) := by
  simp only [expModal, modal]
  rw [coe_sum]
  refine Finset.sum_congr rfl (fun j _ => ?_)
  by_cases h : j = i
  · rw [if_pos h, if_pos h.symm]
  · rw [if_neg h, if_neg (fun h' => h h'.symm)]
    rw [Ideal.log_coe, Ideal.log_coe, if_neg (not_le.mpr (hp i)), if_neg (not_le.mpr (hp j)), oneLit_eq,
      ← EReal.coe_sub, ← EReal.coe_mul, ← EReal.coe_mul, ← EReal.coe_add, Ideal.exp_coe,
      rpow_mul_rpow_eq_exp _ _ _ (hp i) (hp j)]

theorem powModal_coe (p : Fin 16 → ℝ) (hp : ∀ j, 0 < p j) (g : Fin 16 → Fin 16 → ℝ) (i : Fin 16) :
    powModal (fun j => (p j : EReal)) (fun a b => (g a b : EReal)) i = ((modal p g i : ℝ) : EReal) := by
  simp only [powModal, modal]
  rw [zeroLit_eq, zero_add, coe_sum]
  refine Finset.sum_congr rfl (fun j _ => ?_)
  by_cases h : i = j
  · rw [if_pos h, if_pos h]
  · rw [if_neg h, if_neg h, oneLit_eq, ← EReal.coe_sub, Ideal.pow_coe_coe, Ideal.pow_coe_coe, ← EReal.coe_mul]
    rfl

/-! ## The scores -/

theorem expScore_coe (p : Fin 16 → ℝ) (hp : ∀ j, 0 < p j) (g : Fin 16 → Fin 16 → ℝ) (k : Fin 16) :
    expScore (fun j => (p j : EReal)) (fun a b => (g a b : EReal)) k
      = ((score p (fun a b => g b a) k : ℝ) : EReal) := by
  unfold expScore score
  rw [expModal_coe p hp g k, negQuarterLit_eq, ← EReal.coe_mul]

theorem powScore_coe (p : Fin 16 → ℝ) (hp : ∀ j, 0 < p j) (g : Fin 16 → Fin 16 → ℝ) (k : Fin 16) :
    powScore (fun j => (p j : EReal)) (fun a b => (g a b : EReal)) k = ((score p g k : ℝ) : EReal) := by
  unfold powScore score
  rw [powModal_coe p hp g k, sixteenLit_eq, oneLit_eq, Ideal.sqrt_coe,
    if_neg (show ¬ ((16 : ℝ) < 0) by norm_num), sqrt_sixteen,
    div_coe_coe 1 4 (by norm_num), ← EReal.coe_neg, ← EReal.coe_mul]

/-! ## The maxima are real numbers -/

theorem expMax_real (p : Fin 16 → ℝ) (hp : ∀ j, 0 < p j) (g : Fin 16 → Fin 16 → ℝ) :
    ∃ M : ℝ, expMax (fun j => (p j : EReal)) (fun a b => (g a b : EReal)) = (M : EReal) := by
  have hs : expScore (fun j => (p j : EReal)) (fun a b => (g a b : EReal))
      = fun k => ((score p (fun a b => g b a) k : ℝ) : EReal) :=
    funext (fun k => expScore_coe p hp g k)
  unfold expMax
  rw [negInfLit_eq, hs]
  exact fold_max_bot_coe _

theorem powMax_real (p : Fin 16 → ℝ) (hp : ∀ j, 0 < p j) (g : Fin 16 → Fin 16 → ℝ) :
    ∃ M : ℝ, powMax (fun j => (p j : EReal)) (fun a b => (g a b : EReal)) = (M : EReal) := by
  have hs : powScore (fun j => (p j : EReal)) (fun a b => (g a b : EReal))
      = fun k => ((score p g k : ℝ) : EReal) :=
    funext (fun k => powScore_coe p hp g k)
  obtain ⟨M, hM⟩ := fold_max_bot_coe (fun k => score p g k)
  refine ⟨M, ?_⟩
  unfold powMax
  rw [negInfLit_eq, hs, hM, max_eq_right bot_le]

/-! ## The two spellings of the log-softmax -/

theorem expLogit_coe (p : Fin 16 → ℝ) (hp : ∀ j, 0 < p j) (g : Fin 16 → Fin 16 → ℝ) (i : Fin 16) :
    expLogit (fun j => (p j : EReal)) (fun a b => (g a b : EReal)) i
      = ((logit p (fun a b => g b a) i : ℝ) : EReal) := by
  obtain ⟨M, hM⟩ := expMax_real p hp g
  have hpos := sum_exp_pos (fun k => score p (fun a b => g b a) k - M)
  unfold expLogit logit
  rw [hM]
  simp only [expScore_coe p hp g, ← EReal.coe_sub, Ideal.exp_coe]
  rw [← coe_sum, Ideal.log_coe, if_neg (not_le.mpr hpos), ← EReal.coe_add, ← EReal.coe_sub, log_sum_exp_sub]
  congr 1
  ring

theorem powLogit_coe (p : Fin 16 → ℝ) (hp : ∀ j, 0 < p j) (g : Fin 16 → Fin 16 → ℝ) (i : Fin 16) :
    powLogit (fun j => (p j : EReal)) (fun a b => (g a b : EReal)) i = ((logit p g i : ℝ) : EReal) := by
  obtain ⟨M, hM⟩ := powMax_real p hp g
  have hpos := sum_exp_pos (fun k => score p g k - M)
  unfold powLogit logit
  rw [hM, zeroLit_eq, zero_add]
  simp only [powScore_coe p hp g, ← EReal.coe_sub, Ideal.exp_coe]
  rw [← coe_sum, Ideal.log_coe, if_neg (not_le.mpr hpos), ← EReal.coe_sub, log_sum_exp_sub]
  congr 1
  ring

/-! ## The base of the powers is a real number -/

theorem phiAt_real (v vm w b : ℝ) :
    ∃ r : ℝ, phiAt (v : EReal) (vm : EReal) (w : EReal) (b : EReal) = (r : EReal) := by
  obtain ⟨e, he⟩ := eLit_real
  refine ⟨(1 + w) * max (v - vm + e) e + b, ?_⟩
  unfold phiAt
  rw [he, oneLit_eq, ← EReal.coe_add, ← EReal.coe_sub, ← EReal.coe_add, ← coe_max, ← EReal.coe_mul,
    ← EReal.coe_add]

/-- The exponential of a real, on the extended reals. -/
theorem exp_logit_coe (x : ℝ) : Ideal.exp ((x : ℝ) : EReal) = ((Real.exp x : ℝ) : EReal) := rfl

end Cert.PowerSoftmax

end
-- ==== Proof.PowerSoftmaxJoin.lean ====
/-
  The exponential and the power spelling of the log-softmax agree on a positive real row and a real symmetric matrix.

  Both spellings give the real log-softmax of the scores: the exponential spelling for the transposed matrix, the power
  spelling for the matrix itself. A symmetric matrix is its own transpose, so the two real values are the same number.
  The row and the matrix are given on the extended reals together with the facts that every entry is a real number, that
  the row is positive, and that the matrix is symmetric; the real witnesses are chosen entry by entry, positivity and
  symmetry pass to them because the embedding of the reals is strictly monotone and injective.

  Two closure facts used with it: the sum of two reals is a real, and the base of the powers is a real number whenever
  its four arguments are.
-/
import proofs.«153629_j81707457839189_2_alg».proof.Proof.PowerSoftmaxLaws

noncomputable section

open scoped BigOperators

namespace Cert.PowerSoftmax

open Idealize.ShloMosaic Cert.LibSoftRow

/-- On a positive real row and a real symmetric matrix the two spellings of the log-softmax are equal. -/
theorem expLogit_eq_powLogit (phi : Fin 16 → EReal) (G : Fin 16 → Fin 16 → EReal)
    (hphi : ∀ j, ∃ r : ℝ, phi j = (r : EReal)) (hpos : ∀ j, (0 : EReal) < phi j)
    (hG : ∀ a b, ∃ r : ℝ, G a b = (r : EReal)) (hsym : ∀ a b, G a b = G b a) (i : Fin 16) :
    expLogit phi G i = powLogit phi G i := by
  choose p hp using hphi
  choose g hg using hG
  have hphi' : phi = fun j => (p j : EReal) := funext hp
  have hG' : G = fun a b => (g a b : EReal) := funext (fun a => funext (fun b => hg a b))
  have hp0 : ∀ j, 0 < p j := by
    intro j
    have h := hpos j
    rw [hp j] at h
    exact EReal.coe_pos.mp h
  have hgs : (fun a b => g b a) = g := by
    funext a b
    have h := hsym b a
    rw [hg b a, hg a b] at h
    exact EReal.coe_eq_coe_iff.mp h
  rw [hphi', hG', expLogit_coe p hp0 g i, powLogit_coe p hp0 g i, hgs]

/-- The sum of two real numbers is a real number. -/
theorem sum_real_of_real (a b : EReal) (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The base of the powers is a real number when the entry, the minimum, the scale and the offset are. -/
theorem phiAt_real' (v vm w b : EReal) (hv : ∃ r : ℝ, v = (r : EReal)) (hvm : ∃ r : ℝ, vm = (r : EReal))
    (hw : ∃ r : ℝ, w = (r : EReal)) (hb : ∃ r : ℝ, b = (r : EReal)) :
    ∃ r : ℝ, phiAt v vm w b = (r : EReal) := by
  obtain ⟨v', rfl⟩ := hv
  obtain ⟨vm', rfl⟩ := hvm
  obtain ⟨w', rfl⟩ := hw
  obtain ⟨b', rfl⟩ := hb
  exact phiAt_real v' vm' w' b'

end Cert.PowerSoftmax

end
-- ==== Proof.Join.lean ====
/-
  The two programs' logits agree, row by row and mode by mode.

  At row `n` both programs form the bases `phi j = (1 + w j) · max (V (n, j) - vmin j + e) e + b j` from the same column minima and
  the same symmetric exponent matrix `G = U + Uᵀ` (`U` the strict upper triangle of the input matrix); the kernel's program then
  takes the exponential spelling of the log-softmax of the energies, the reference the power spelling. Under the precondition
  every input is a real number and every base is positive; the column minima of finitely many reals are real, so the bases are
  positive reals, and the matrix is real and symmetric: the two spellings are then one real number.
-/
import proofs.«153629_j81707457839189_2_alg».proof.Proof.RefSide
import proofs.«153629_j81707457839189_2_alg».proof.Proof.PreSide
import proofs.«153629_j81707457839189_2_alg».proof.Proof.KerInputs
import proofs.«153629_j81707457839189_2_alg».proof.Proof.PowerSoftmaxJoin
import proofs.«153629_j81707457839189_2_alg».proof.Proof.Gen.Pre_finite_inputs

set_option maxRecDepth 65536

noncomputable section

namespace Cert.Join

open Idealize.ShloMosaic Idealize.ShloMosaic.ValueIdx Idealize.SL.Sem Cert.PowerSoftmax

section
variable (x0 : FVec Ideal Cert.ReferenceIdeal.S500000x16 .f32) (x1 x2 : FVec Ideal Cert.ReferenceIdeal.S16 .f32)
  (x3 : FVec Ideal Cert.ReferenceIdeal.S16x16 .f32)

/-- The column minima are one term in the precondition and in the reference. -/
theorem colMin_eq : Cert.PreSide.colMin x0 = Cert.ReferenceIdeal.ReadP.val_main_v2 (F := Ideal) x0 := rfl

/-- Under the precondition the reference's two spellings of the logit agree. -/
theorem pow_eq_exp (hpre : Cert.Pre_finite_inputs.fn (F := Ideal) x0 x1 x2 x3 = fun _ => 1#1) (n : Fin 500000) (i : Fin 16) :
    powLogit (fun j => Cert.ReferenceIdeal.ReadP.val_main_v17 (F := Ideal) x0 x1 x2 (ix2 n j))
        (fun a b => Cert.ReferenceIdeal.ReadP.val_main_v20 (F := Ideal) x3 (ix2 a b)) i
      = expLogit (fun j => Cert.ReferenceIdeal.ReadP.val_main_v17 (F := Ideal) x0 x1 x2 (ix2 n j))
        (fun a b => Cert.ReferenceIdeal.ReadP.val_main_v20 (F := Ideal) x3 (ix2 a b)) i := by
  obtain ⟨h0, h1, h2, h3, hpos⟩ := Cert.PreSide.pre_decode x0 x1 x2 x3 hpre
  refine (expLogit_eq_powLogit _ _ ?_ ?_ ?_ ?_ i).symm
  · intro j
    rw [Cert.RefSide.phi_apply]
    exact phiAt_real' _ _ _ _ (h0 _) (by rw [← colMin_eq]; exact Cert.PreSide.colMin_real x0 h0 j) (h1 _) (h2 _)
  · intro j
    rw [Cert.RefSide.phi_apply, ← colMin_eq]
    exact hpos n j
  · intro a b
    rw [Cert.RefSide.G_apply]
    exact sum_real_of_real _ _ (Cert.RefSide.triu_real x3 h3 a b) (Cert.RefSide.triu_real x3 h3 b a)
  · intro a b
    rw [Cert.RefSide.G_apply, Cert.RefSide.G_apply, add_comm]

end

open Cert.KernelIdeal in
/-- The reference's logit at (n, i) is the kernel program's: the exponential spelling over the same bases and matrix, the
    kernel's program reading the minima and the matrix from the buffers its host operations wrote. -/
theorem logit_eq (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1)
    (n : Fin 500000) (i : Fin 16) :
    Cert.ReferenceIdeal.ReadP.val_main_v45 (F := Ideal) (m ((c.tc : Thread nD τ).loc main_arg0)) (m ((c.tc : Thread nD τ).loc main_arg1))
        (m ((c.tc : Thread nD τ).loc main_arg2)) (m ((c.tc : Thread nD τ).loc main_arg3)) (ix2 n i)
      = expLogit
          (fun j => phiAt (m ((c.tc : Thread nD τ).loc main_arg0) (ix2 n j)) ((Gen.V m c main_v8 : S16x1.Idx → EReal) (ix2 j (0 : Fin 1)))
            (m ((c.tc : Thread nD τ).loc main_arg1) (ix1 j)) (m ((c.tc : Thread nD τ).loc main_arg2) (ix1 j)))
          (fun a b => (Gen.V m c main_v3 : S16x16.Idx → EReal) (ix2 a b)) i := by
  rw [Cert.RefSide.logits_apply, pow_eq_exp _ _ _ _ hpre, Cert.KernelIdeal.InputValue.V3_eq]
  simp only [Cert.RefSide.phi_apply]
  refine congrArg (fun f => expLogit f _ i) (funext fun j => ?_)
  rw [Cert.KernelIdeal.InputValue.V8_apply m c j]

end Cert.Join

end
-- ==== Proof.KerRow.lean ====
/-
  One row of the pairwise energies, as the kernel computes it on a block of 8192 columns.

  For a mode `i` the kernel forms, on the 16 × 8192 block, the array whose entry (j, q) is

      e^(g j · ℓ q + (1 - g j) · L (j, q))      for j ≠ i,        P q      for j = i,

  where `g` is column `i` of the symmetric exponent matrix (a 16 × 1 column), `ℓ` is row `i` of the logarithms `L`
  (a 1 × 8192 row), `P` is row `i` of the bases, and the row index `j` is compared with `i` through an iota along the rows;
  it then sums over `j`. Read at column `q`, the result is the sum over the sixteen rows of that entry.
-/
import proofs.«153629_j81707457839189_2_alg».proof.KernelIdeal
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowValue

open Cert.KernelIdeal Cert.KernelIdeal.Facts₀ Cert.KernelIdeal.Facts Idealize.ShloMosaic Idealize.ShloMosaic.ValueIdx

variable [Cert.KernelIdeal.Facts]

/-- The row of sums for one mode: `gcol` the mode's column of exponents, `lrow` / `prow` the mode's rows of logarithms and
    of bases, `ci` the mode's number as a word, `v22` all logarithms, `v23` the row numbers. -/
def rowSum {F : FTy → Type} [FloatOps F] (gcol : FVec F S16x1 .f32) (lrow prow : FVec F S1x8192 .f32) (ci : BitVec 32)
    (v22 : FVec F S16x8192 .f32) (v23 : IVec S16x8192 32) : FVec F S1x8192 .f32 :=
  shapeCast S1x8192 (multiReduction .add [0] S8192
    (select (cmpi .eq v23 (broadcast S16x8192 ci))
      (broadcastTo S16x8192 (shapeCast S1x8192 prow shapeCasts_S1x8192_S1x8192) broadcasts_S1x8192_S16x8192)
      (exp (addf (mulf (broadcastTo S16x8192 gcol broadcasts_S16x1_S16x8192) (broadcastTo S16x8192 lrow broadcasts_S1x8192_S16x8192))
                 (mulf (broadcastTo S16x8192 (subf (broadcast S16x1 (Scalar.ofBits .f32 0x3F800000#32)) gcol) broadcasts_S16x1_S16x8192) v22))))
    0x00000000#32 reduces_S16x8192_S8192 (.inl rfl) rfl) shapeCasts_S8192_S1x8192

/-- A 16 × 1 column spread over 8192 columns reads, at (j, q), the column at j. -/
theorem column_spread_apply {α : Type} (v : S16x1.Idx → α) (j : Fin 16) (q : Fin 8192) :
    broadcastTo S16x8192 v broadcasts_S16x1_S16x8192 (ix2 j q) = v (ix2 j (0 : Fin 1)) := by
  refine broadcastTo_apply v broadcasts_S16x1_S16x8192 (ix2 j q) (ix2 j (0 : Fin 1)) fun ax => ?_
  match ax with
  | ⟨0, _⟩ => rfl
  | ⟨1, _⟩ => rfl

/-- A 1 × 8192 row spread over 16 rows reads, at (j, q), the row at q. -/
theorem row_spread_apply {α : Type} (v : S1x8192.Idx → α) (j : Fin 16) (q : Fin 8192) :
    broadcastTo S16x8192 v broadcasts_S1x8192_S16x8192 (ix2 j q) = v (ix2 (0 : Fin 1) q) :=
  broadcastTo_1b_ab_apply v broadcasts_S1x8192_S16x8192 j q

/-- The sum over the rows, at column q. -/
theorem rowSum_apply (gcol : FVec Ideal S16x1 .f32) (lrow prow : FVec Ideal S1x8192 .f32) (ci : BitVec 32)
    (v22 : FVec Ideal S16x8192 .f32) (v23 : IVec S16x8192 32) (q : Fin 8192) :
    rowSum (F := Ideal) gcol lrow prow ci v22 v23 (ix2 (0 : Fin 1) q)
      = ∑ j : Fin 16, Scalar.select (Scalar.cmpi .eq (v23 (ix2 j q)) ci) (prow (ix2 (0 : Fin 1) q))
          (Ideal.exp (gcol (ix2 j (0 : Fin 1)) * lrow (ix2 (0 : Fin 1) q)
            + (Ideal.ofBits .f32 0x3F800000#32 - gcol (ix2 j (0 : Fin 1))) * v22 (ix2 j q))) := by
  unfold rowSum
  rw [shapeCast_a_1a_apply]
  refine (Ideal.multiReduction_add_single _ 0x00000000#32 reduces_S16x8192_S8192 (.inl rfl) rfl (ix1 q)).trans ?_
  show (∑ j : Fin 16, _) = _
  refine Finset.sum_congr rfl fun (j : Fin 16) _ => ?_
  have hl : (reduces_S16x8192_S8192).lift (ix1 q) j = ix2 j q := by
    funext a; match a with | ⟨0, _⟩ => rfl | ⟨1, _⟩ => rfl
  rw [hl, select_apply, row_spread_apply, shapeCast_self]
  show Scalar.select (Scalar.cmpi .eq (v23 (ix2 j q)) ci) (prow (ix2 (0 : Fin 1) q))
      (Ideal.exp (broadcastTo S16x8192 gcol broadcasts_S16x1_S16x8192 (ix2 j q) * broadcastTo S16x8192 lrow broadcasts_S1x8192_S16x8192 (ix2 j q)
        + broadcastTo S16x8192 (subf (broadcast S16x1 (Scalar.ofBits .f32 0x3F800000#32)) gcol) broadcasts_S16x1_S16x8192 (ix2 j q) * v22 (ix2 j q))) = _
  rw [column_spread_apply, column_spread_apply, row_spread_apply]
  rfl

end Cert.KernelIdeal.RowValue

end
-- ==== Proof.KerBlock.lean ====
/-
  The kernel's arithmetic on one block of 8192 columns, read at an index.

  On a block the kernel first forms the bases `P (j, q) = (1 + w j) · max (V (j, q) - vmin j + e) e + b j` and their logarithms,
  then, for each mode `r`, the row `∑ j, (if j = r then P (r, q) else e^(G (j, r) · log P (r, q) + (1 - G (j, r)) · log P (j, q)))`
  (the row number `j` is compared with `r` through an iota along the rows: two row numbers below 16 are equal as 32-bit words
  exactly when they are equal).
-/
import proofs.«153629_j81707457839189_2_alg».proof.Proof.Gen.KernelIdeal.Skeleton
import proofs.«153629_j81707457839189_2_alg».proof.Proof.KerRow

noncomputable section

open scoped BigOperators

namespace Cert.KernelIdeal.BlockValue

open Cert.KernelIdeal Cert.KernelIdeal.Facts₀ Cert.KernelIdeal.Facts Cert.KernelIdeal.RowValue
open Idealize.ShloMosaic Idealize.ShloMosaic.ValueIdx

/-- Two row numbers below 16, as 32-bit words, are equal exactly when the rows are. -/
theorem rowWord_eq : ∀ j r : Fin 16, IntOp.cmpi .eq (BitVec.ofNat 32 j.val) (BitVec.ofNat 32 r.val) = if j = r then 1#1 else 0#1 := by
  decide

/-- Choosing by the comparison of two row numbers is choosing by their equality. -/
theorem select_rowWord {α : Type} (j r : Fin 16) (a b : α) :
    Scalar.select (Scalar.cmpi .eq (BitVec.ofNat 32 j.val) (BitVec.ofNat 32 r.val)) a b = if j = r then a else b := by
  show Scalar.select (IntOp.cmpi .eq (BitVec.ofNat 32 j.val) (BitVec.ofNat 32 r.val)) a b = _
  rw [rowWord_eq]
  by_cases h : j = r
  · rw [if_pos h, if_pos h]; exact select_one a b
  · rw [if_neg h, if_neg h]; exact select_zero a b

/-- The bases on the block, at (j, q). -/
theorem bases_apply (x0 : Vec Ideal S16x8192 .f32) (x4 x1 x2 : Vec Ideal S16x1 .f32) (j : Fin 16) (q : Fin 8192) :
    Gen.k0_pay5 (F := Ideal) x0 x4 x1 x2 (ix2 j q)
      = (Ideal.ofBits .f32 0x3F800000#32 + x1 (ix2 j (0 : Fin 1)))
          * max (x0 (ix2 j q) - x4 (ix2 j (0 : Fin 1)) + Ideal.ofBits .f32 0x402DF854#32) (Ideal.ofBits .f32 0x402DF854#32)
        + x2 (ix2 j (0 : Fin 1)) := by
  unfold Gen.k0_pay5
  simp only [shapeCast_self, addf_apply, mulf_apply, subf_apply, maximumf_apply, column_spread_apply, broadcast_apply]
  rfl

/-- The sum for mode `r`, at column `q`, from the mode's column of exponents and its rows of logarithms and bases. -/
theorem modeRow_apply (G : FVec Ideal S16x16 .f32) (Pm : FVec Ideal S16x8192 .f32) (r : Fin 16)
    (gcol : FVec Ideal S16x1 .f32) (lrow prow : FVec Ideal S1x8192 .f32) (ci : BitVec 32)
    (hci : ci = BitVec.ofNat 32 r.val)
    (hg : ∀ j : Fin 16, gcol (ix2 j (0 : Fin 1)) = G (ix2 j r))
    (hl : ∀ q : Fin 8192, lrow (ix2 (0 : Fin 1) q) = Ideal.log (Pm (ix2 r q)))
    (hp : ∀ q : Fin 8192, prow (ix2 (0 : Fin 1) q) = Pm (ix2 r q)) (q : Fin 8192) :
    shapeCast S1x8192 (rowSum (F := Ideal) gcol lrow prow ci (log Pm) (iota .tc S16x8192 32 [0] iota_S16x8192_d0_w32))
        shapeCasts_S1x8192_S1x8192 (ix2 (0 : Fin 1) q)
      = ∑ j : Fin 16, if j = r then Pm (ix2 r q) else
          Ideal.exp (G (ix2 j r) * Ideal.log (Pm (ix2 r q))
            + (Ideal.ofBits .f32 0x3F800000#32 - G (ix2 j r)) * Ideal.log (Pm (ix2 j q))) := by
  rw [shapeCast_self, rowSum_apply]
  refine Finset.sum_congr rfl fun j _ => ?_
  rw [iota_single_apply, hci, hg, hl, hp]
  show Scalar.select (Scalar.cmpi .eq (BitVec.ofNat 32 j.val) (BitVec.ofNat 32 r.val)) _ _ = _
  rw [select_rowWord]
  rfl

end Cert.KernelIdeal.BlockValue

end
-- ==== Proof.KerSoft.lean ====
/-
  The closing log-softmax of the kernel, on one block of 8192 columns, read at an index.

  From the 16 × 8192 array `M` of energies the kernel forms the scores `s (k, q) = c · M (k, q)` (`c` the constant -1/4), the column
  maximum `m q` taken from -∞ over the sixteen rows, the column sum `∑ k, e^(s (k, q) - m q)`, and stores
  `s (i, q) - (m q + log ∑ k, e^(s (k, q) - m q))` and its exponential.
-/
import proofs.«153629_j81707457839189_2_alg».proof.Proof.Gen.KernelIdeal.Skeleton
import proofs.«153629_j81707457839189_2_alg».proof.Proof.KerRow

noncomputable section

open scoped BigOperators

namespace Cert.KernelIdeal.SoftValue

open Cert.KernelIdeal Cert.KernelIdeal.Facts₀ Cert.KernelIdeal.Facts Cert.KernelIdeal.RowValue
open Idealize.ShloMosaic Idealize.ShloMosaic.ValueIdx

theorem exp_at {s : Shape} (x : FVec Ideal s .f32) (i : s.Idx) : exp x i = Ideal.exp (x i) := rfl
theorem log_at {s : Shape} (x : FVec Ideal s .f32) (i : s.Idx) : log x i = Ideal.log (x i) := rfl

/-- The maximum over the sixteen rows, from -∞, kept as a 1 × 8192 row, at column q. -/
theorem colMax_apply (X : FVec Ideal S16x8192 .f32) (q : Fin 8192) :
    shapeCast S1x8192 (multiReduction .maximumf [0] S8192 X 0xFF800000#32 reduces_S16x8192_S8192 (.inl rfl) rfl) shapeCasts_S8192_S1x8192
        (ix2 (0 : Fin 1) q)
      = (Finset.univ : Finset (Fin 16)).fold max (Ideal.ofBits .f32 0xFF800000#32) (fun k => X (ix2 k q)) := by
  rw [shapeCast_a_1a_apply]
  refine (Ideal.multiReduction_maximumf_single X 0xFF800000#32 reduces_S16x8192_S8192 (.inl rfl) rfl (ix1 q)).trans ?_
  show (Finset.univ : Finset (Fin 16)).fold max _ _ = _
  refine congrArg (fun f => (Finset.univ : Finset (Fin 16)).fold max (Ideal.ofBits .f32 0xFF800000#32) f) (funext fun (k : Fin 16) => ?_)
  show X ((reduces_S16x8192_S8192).lift (ix1 q) k) = X (ix2 k q)
  refine congrArg X ?_
  funext a; match a with | ⟨0, _⟩ => rfl | ⟨1, _⟩ => rfl

/-- The sum over the sixteen rows, kept as a 1 × 8192 row, at column q. -/
theorem colSum_apply (X : FVec Ideal S16x8192 .f32) (q : Fin 8192) :
    shapeCast S1x8192 (multiReduction .add [0] S8192 X 0x00000000#32 reduces_S16x8192_S8192 (.inl rfl) rfl) shapeCasts_S8192_S1x8192
        (ix2 (0 : Fin 1) q)
      = ∑ k : Fin 16, X (ix2 k q) := by
  rw [shapeCast_a_1a_apply]
  refine (Ideal.multiReduction_add_single X 0x00000000#32 reduces_S16x8192_S8192 (.inl rfl) rfl (ix1 q)).trans ?_
  show (∑ k : Fin 16, _) = _
  refine Finset.sum_congr rfl fun (k : Fin 16) _ => ?_
  refine congrArg X ?_
  funext a; match a with | ⟨0, _⟩ => rfl | ⟨1, _⟩ => rfl

/-- The scores `c · M`. -/
def scores (M : Vec Ideal S16x8192 .f32) : FVec Ideal S16x8192 .f32 :=
  mulf (broadcast S16x8192 (Scalar.ofBits .f32 0xBE800000#32)) M

/-- The column maxima, as a 1 × 8192 row. -/
def colMax (X : FVec Ideal S16x8192 .f32) : FVec Ideal S1x8192 .f32 :=
  shapeCast S1x8192 (multiReduction .maximumf [0] S8192 X 0xFF800000#32 reduces_S16x8192_S8192 (.inl rfl) rfl) shapeCasts_S8192_S1x8192

/-- The column sums, as a 1 × 8192 row. -/
def colSum (X : FVec Ideal S16x8192 .f32) : FVec Ideal S1x8192 .f32 :=
  shapeCast S1x8192 (multiReduction .add [0] S8192 X 0x00000000#32 reduces_S16x8192_S8192 (.inl rfl) rfl) shapeCasts_S8192_S1x8192

/-- The shifted scores `s - m`. -/
def shifted (M : Vec Ideal S16x8192 .f32) : FVec Ideal S16x8192 .f32 :=
  subf (scores M) (broadcastTo S16x8192 (colMax (scores M)) broadcasts_S1x8192_S16x8192)

theorem pay2_eq (M : Vec Ideal S16x8192 .f32) :
    Gen.k0_pay2 (F := Ideal) M
      = subf (scores M) (broadcastTo S16x8192 (addf (colMax (scores M)) (log (colSum (exp (shifted M))))) broadcasts_S1x8192_S16x8192) := rfl

theorem scores_apply (M : Vec Ideal S16x8192 .f32) (k : Fin 16) (q : Fin 8192) :
    scores M (ix2 k q) = Ideal.ofBits .f32 0xBE800000#32 * M (ix2 k q) := rfl

theorem shifted_apply (M : Vec Ideal S16x8192 .f32) (k : Fin 16) (q : Fin 8192) :
    shifted M (ix2 k q) = Ideal.ofBits .f32 0xBE800000#32 * M (ix2 k q)
      - (Finset.univ : Finset (Fin 16)).fold max (Ideal.ofBits .f32 0xFF800000#32) (fun k => Ideal.ofBits .f32 0xBE800000#32 * M (ix2 k q)) := by
  show scores M (ix2 k q) - broadcastTo S16x8192 (colMax (scores M)) broadcasts_S1x8192_S16x8192 (ix2 k q) = _
  rw [row_spread_apply]
  show _ - colMax (scores M) (ix2 (0 : Fin 1) q) = _
  unfold colMax
  rw [colMax_apply]
  rfl

/-- The stored logits, at (i, q). -/
theorem logits_apply (M : Vec Ideal S16x8192 .f32) (i : Fin 16) (q : Fin 8192) :
    Gen.k0_pay2 (F := Ideal) M (ix2 i q)
      = Ideal.ofBits .f32 0xBE800000#32 * M (ix2 i q)
        - ((Finset.univ : Finset (Fin 16)).fold max (Ideal.ofBits .f32 0xFF800000#32) (fun k => Ideal.ofBits .f32 0xBE800000#32 * M (ix2 k q))
          + Ideal.log (∑ k : Fin 16, Ideal.exp (Ideal.ofBits .f32 0xBE800000#32 * M (ix2 k q)
              - (Finset.univ : Finset (Fin 16)).fold max (Ideal.ofBits .f32 0xFF800000#32)
                  (fun k => Ideal.ofBits .f32 0xBE800000#32 * M (ix2 k q))))) := by
  rw [pay2_eq]
  show scores M (ix2 i q)
      - broadcastTo S16x8192 (addf (colMax (scores M)) (log (colSum (exp (shifted M))))) broadcasts_S1x8192_S16x8192 (ix2 i q) = _
  rw [row_spread_apply]
  show scores M (ix2 i q) - (colMax (scores M) (ix2 (0 : Fin 1) q) + Ideal.log (colSum (exp (shifted M)) (ix2 (0 : Fin 1) q))) = _
  have h1 : colMax (scores M) (ix2 (0 : Fin 1) q)
      = (Finset.univ : Finset (Fin 16)).fold max (Ideal.ofBits .f32 0xFF800000#32) (fun k => Ideal.ofBits .f32 0xBE800000#32 * M (ix2 k q)) := by
    unfold colMax; rw [colMax_apply]; rfl
  have h2 : colSum (exp (shifted M)) (ix2 (0 : Fin 1) q)
      = ∑ k : Fin 16, Ideal.exp (Ideal.ofBits .f32 0xBE800000#32 * M (ix2 k q)
          - (Finset.univ : Finset (Fin 16)).fold max (Ideal.ofBits .f32 0xFF800000#32)
              (fun k => Ideal.ofBits .f32 0xBE800000#32 * M (ix2 k q))) := by
    unfold colSum; rw [colSum_apply]
    refine Finset.sum_congr rfl fun k _ => ?_
    show Ideal.exp (shifted M (ix2 k q)) = _
    rw [shifted_apply]
  rw [h1, h2]
  rfl

/-- The stored weights: the exponential of the logits. -/
theorem alphas_apply (M : Vec Ideal S16x8192 .f32) (i : Fin 16) (q : Fin 8192) :
    Gen.k0_pay3 (F := Ideal) M (ix2 i q) = Ideal.exp (Gen.k0_pay2 (F := Ideal) M (ix2 i q)) := rfl

end Cert.KernelIdeal.SoftValue

end
-- ==== Proof.KerBody.lean ====
/-
  What one run of the kernel's body leaves in its two output blocks, read at an index, as a function of the five input blocks:
  the block of data (16 × 8192), the columns of scales, offsets and minima (16 × 1 each) and the exponent matrix (16 × 16).

  The body writes the sixteen rows of energies one by one into a scratch block, reads the whole block back, and stores the
  log-softmax of the scores down each column and its exponential. The scratch block read back is, index by index, the
  array of energies: the sixteen one-row stores tile it, and row `r` of the stores is the sum for mode `r`.
-/
import proofs.«153629_j81707457839189_2_alg».proof.Proof.Gen.KernelIdeal.Frame
import proofs.«153629_j81707457839189_2_alg».proof.Proof.KerBlock
import proofs.«153629_j81707457839189_2_alg».proof.Proof.KerSoft
import proofs.«153629_j81707457839189_2_alg».proof.Proof.PowerSoftmax
import Idealize.ShloMosaic.Lib.Pipeline.Value

set_option maxRecDepth 65536

noncomputable section

open scoped BigOperators

namespace Cert.KernelIdeal.BodyValue

open Cert.KernelIdeal Cert.KernelIdeal.RowValue Cert.KernelIdeal.BlockValue Cert.KernelIdeal.SoftValue Cert.PowerSoftmax
open Idealize.ShloMosaic Idealize.ShloMosaic.TcCoe Idealize.ShloMosaic.Tactic Idealize.ShloMosaic.ValueIdx Idealize.SL.Sem

/-- The energy of mode `r` at column `q` of the block. -/
def modalAt (x0 : Vec Ideal S16x8192 .f32) (x1 x2 : Vec Ideal S16x1 .f32) (x3 : Vec Ideal S16x16 .f32) (x4 : Vec Ideal S16x1 .f32)
    (r : Fin 16) (q : Fin 8192) : EReal :=
  ∑ j : Fin 16, if j = r then Gen.k0_pay5 (F := Ideal) x0 x4 x1 x2 (ix2 r q) else
    Ideal.exp (x3 (ix2 j r) * Ideal.log (Gen.k0_pay5 (F := Ideal) x0 x4 x1 x2 (ix2 r q))
      + (Ideal.ofBits .f32 0x3F800000#32 - x3 (ix2 j r)) * Ideal.log (Gen.k0_pay5 (F := Ideal) x0 x4 x1 x2 (ix2 j q)))

/-- The 16 × 8192 array of energies. -/
def modalBlk (x0 : Vec Ideal S16x8192 .f32) (x1 x2 : Vec Ideal S16x1 .f32) (x3 : Vec Ideal S16x16 .f32) (x4 : Vec Ideal S16x1 .f32) :
    Vec Ideal S16x8192 .f32 :=
  fun y => modalAt x0 x1 x2 x3 x4 ⟨(y 0).val, idx2_lt0 y⟩ ⟨(y 1).val, idx2_lt1 y⟩

theorem modalBlk_of (x0 : Vec Ideal S16x8192 .f32) (x1 x2 : Vec Ideal S16x1 .f32) (x3 : Vec Ideal S16x16 .f32) (x4 : Vec Ideal S16x1 .f32) (y : S16x8192.Idx) (r : Fin 16) (q : Fin 8192)
    (h0 : (y 0).val = r.val) (h1 : (y 1).val = q.val) : modalBlk x0 x1 x2 x3 x4 y = modalAt x0 x1 x2 x3 x4 r q := by
  unfold modalBlk
  have e0 : (⟨(y 0).val, idx2_lt0 y⟩ : Fin 16) = r := Fin.ext h0
  have e1 : (⟨(y 1).val, idx2_lt1 y⟩ : Fin 8192) = q := Fin.ext h1
  rw [e0, e1]

theorem modalBlk_apply (x0 : Vec Ideal S16x8192 .f32) (x1 x2 : Vec Ideal S16x1 .f32) (x3 : Vec Ideal S16x16 .f32) (x4 : Vec Ideal S16x1 .f32) (r : Fin 16) (q : Fin 8192) :
    modalBlk x0 x1 x2 x3 x4 (ix2 r q) = modalAt x0 x1 x2 x3 x4 r q := rfl

/-- The energies are the exponential spelling's energies of the block's bases. -/
theorem modalAt_eq (x0 : Vec Ideal S16x8192 .f32) (x1 x2 : Vec Ideal S16x1 .f32) (x3 : Vec Ideal S16x16 .f32) (x4 : Vec Ideal S16x1 .f32) (r : Fin 16) (q : Fin 8192) :
    modalAt x0 x1 x2 x3 x4 r q
      = expModal (fun j => phiAt (x0 (ix2 j q)) (x4 (ix2 j (0 : Fin 1))) (x1 (ix2 j (0 : Fin 1))) (x2 (ix2 j (0 : Fin 1))))
          (fun a b => x3 (ix2 a b)) r := by
  unfold modalAt expModal
  simp only [bases_apply]
  rfl

/-! ## The sixteen one-row stores: row `r` holds the sums for mode `r`

Each store's payload is the same arithmetic at another mode: the mode's column of the exponent matrix and its rows of the
logarithms and of the bases are slices at offset `r`, and the row number is compared with the word `r`. -/

set_option hygiene false in
/-- The side facts of `modeRow_apply` for mode `k`: the word, the column of exponents (a slice of the matrix at column `k`),
    the rows of logarithms and of bases (slices at row `k`). -/
local macro "mode_row " k:num g:ident s:ident : tactic => `(tactic| (
  refine modeRow_apply x3 (Gen.k0_pay5 x0 x4 x1 x2) $k _ _ _ _ ?_ ?_ ?_ ?_ q
  · rfl
  · intro j
    exact (slice2_axis1_apply $k (Gen.k0_pay4 x3) $g j 0 $k (by decide)).trans (congrFun (shapeCast_self x3 _) _)
  · intro q'
    exact slice2_axis0_apply $k (Gen.k0_pay6 x0 x4 x1 x2) $s 0 q' $k (by decide)
  · intro q'
    exact slice2_axis0_apply $k (Gen.k0_pay5 x0 x4 x1 x2) $s 0 q' $k (by decide)))

theorem row0 (x0 : Vec Ideal S16x8192 .f32) (x1 x2 : Vec Ideal S16x1 .f32) (x3 : Vec Ideal S16x16 .f32) (x4 : Vec Ideal S16x1 .f32) (q : Fin 8192) :
    (Gen.k0_pay8 (Gen.k0_pay7 x0 x4 x1 x2 x3) : FVec Ideal S1x8192 .f32) (ix2 (0 : Fin 1) q) = modalAt x0 x1 x2 x3 x4 0 q := by
  mode_row 0 Gen.slices_S16x16_o0_0_S16x1 Gen.slices_S16x8192_o0_0_S1x8192
theorem row1 (x0 : Vec Ideal S16x8192 .f32) (x1 x2 : Vec Ideal S16x1 .f32) (x3 : Vec Ideal S16x16 .f32) (x4 : Vec Ideal S16x1 .f32) (q : Fin 8192) :
    (Gen.k0_pay9 (Gen.k0_pay4 x3) (Gen.k0_pay5 x0 x4 x1 x2) (Gen.k0_pay6 x0 x4 x1 x2) (iota Kind.tc S16x8192 32 [0] Gen.iota_S16x8192_d0_w32) : FVec Ideal S1x8192 .f32) (ix2 (0 : Fin 1) q) = modalAt x0 x1 x2 x3 x4 1 q := by
  mode_row 1 Gen.slices_S16x16_o0_1_S16x1 Gen.slices_S16x8192_o1_0_S1x8192
theorem row2 (x0 : Vec Ideal S16x8192 .f32) (x1 x2 : Vec Ideal S16x1 .f32) (x3 : Vec Ideal S16x16 .f32) (x4 : Vec Ideal S16x1 .f32) (q : Fin 8192) :
    (Gen.k0_pay11 (Gen.k0_pay10 (Gen.k0_pay4 x3) (Gen.k0_pay5 x0 x4 x1 x2) (Gen.k0_pay6 x0 x4 x1 x2) (iota Kind.tc S16x8192 32 [0] Gen.iota_S16x8192_d0_w32)) : FVec Ideal S1x8192 .f32) (ix2 (0 : Fin 1) q) = modalAt x0 x1 x2 x3 x4 2 q := by
  mode_row 2 Gen.slices_S16x16_o0_2_S16x1 Gen.slices_S16x8192_o2_0_S1x8192
theorem row3 (x0 : Vec Ideal S16x8192 .f32) (x1 x2 : Vec Ideal S16x1 .f32) (x3 : Vec Ideal S16x16 .f32) (x4 : Vec Ideal S16x1 .f32) (q : Fin 8192) :
    (Gen.k0_pay12 (Gen.k0_pay4 x3) (Gen.k0_pay5 x0 x4 x1 x2) (Gen.k0_pay6 x0 x4 x1 x2) (iota Kind.tc S16x8192 32 [0] Gen.iota_S16x8192_d0_w32) : FVec Ideal S1x8192 .f32) (ix2 (0 : Fin 1) q) = modalAt x0 x1 x2 x3 x4 3 q := by
  mode_row 3 Gen.slices_S16x16_o0_3_S16x1 Gen.slices_S16x8192_o3_0_S1x8192
theorem row4 (x0 : Vec Ideal S16x8192 .f32) (x1 x2 : Vec Ideal S16x1 .f32) (x3 : Vec Ideal S16x16 .f32) (x4 : Vec Ideal S16x1 .f32) (q : Fin 8192) :
    (Gen.k0_pay13 (Gen.k0_pay4 x3) (Gen.k0_pay5 x0 x4 x1 x2) (Gen.k0_pay6 x0 x4 x1 x2) (iota Kind.tc S16x8192 32 [0] Gen.iota_S16x8192_d0_w32) : FVec Ideal S1x8192 .f32) (ix2 (0 : Fin 1) q) = modalAt x0 x1 x2 x3 x4 4 q := by
  mode_row 4 Gen.slices_S16x16_o0_4_S16x1 Gen.slices_S16x8192_o4_0_S1x8192
theorem row5 (x0 : Vec Ideal S16x8192 .f32) (x1 x2 : Vec Ideal S16x1 .f32) (x3 : Vec Ideal S16x16 .f32) (x4 : Vec Ideal S16x1 .f32) (q : Fin 8192) :
    (Gen.k0_pay16 (Gen.k0_pay5 x0 x4 x1 x2) (Gen.k0_pay6 x0 x4 x1 x2) (iota Kind.tc S16x8192 32 [0] Gen.iota_S16x8192_d0_w32) (Gen.k0_pay14 (Gen.k0_pay4 x3)) (Gen.k0_pay15 (Gen.k0_pay6 x0 x4 x1 x2)) : FVec Ideal S1x8192 .f32) (ix2 (0 : Fin 1) q) = modalAt x0 x1 x2 x3 x4 5 q := by
  mode_row 5 Gen.slices_S16x16_o0_5_S16x1 Gen.slices_S16x8192_o5_0_S1x8192
theorem row6 (x0 : Vec Ideal S16x8192 .f32) (x1 x2 : Vec Ideal S16x1 .f32) (x3 : Vec Ideal S16x16 .f32) (x4 : Vec Ideal S16x1 .f32) (q : Fin 8192) :
    (Gen.k0_pay17 (Gen.k0_pay4 x3) (Gen.k0_pay5 x0 x4 x1 x2) (Gen.k0_pay6 x0 x4 x1 x2) (iota Kind.tc S16x8192 32 [0] Gen.iota_S16x8192_d0_w32) : FVec Ideal S1x8192 .f32) (ix2 (0 : Fin 1) q) = modalAt x0 x1 x2 x3 x4 6 q := by
  mode_row 6 Gen.slices_S16x16_o0_6_S16x1 Gen.slices_S16x8192_o6_0_S1x8192
theorem row7 (x0 : Vec Ideal S16x8192 .f32) (x1 x2 : Vec Ideal S16x1 .f32) (x3 : Vec Ideal S16x16 .f32) (x4 : Vec Ideal S16x1 .f32) (q : Fin 8192) :
    (Gen.k0_pay20 (Gen.k0_pay5 x0 x4 x1 x2) (Gen.k0_pay6 x0 x4 x1 x2) (iota Kind.tc S16x8192 32 [0] Gen.iota_S16x8192_d0_w32) (Gen.k0_pay18 (Gen.k0_pay4 x3)) (Gen.k0_pay19 (Gen.k0_pay4 x3) (Gen.k0_pay6 x0 x4 x1 x2)) (FloatOps.ofBits (F := Ideal) .f32 1065353216#32) : FVec Ideal S1x8192 .f32) (ix2 (0 : Fin 1) q) = modalAt x0 x1 x2 x3 x4 7 q := by
  mode_row 7 Gen.slices_S16x16_o0_7_S16x1 Gen.slices_S16x8192_o7_0_S1x8192
theorem row8 (x0 : Vec Ideal S16x8192 .f32) (x1 x2 : Vec Ideal S16x1 .f32) (x3 : Vec Ideal S16x16 .f32) (x4 : Vec Ideal S16x1 .f32) (q : Fin 8192) :
    (Gen.k0_pay21 (Gen.k0_pay4 x3) (Gen.k0_pay5 x0 x4 x1 x2) (Gen.k0_pay6 x0 x4 x1 x2) (iota Kind.tc S16x8192 32 [0] Gen.iota_S16x8192_d0_w32) : FVec Ideal S1x8192 .f32) (ix2 (0 : Fin 1) q) = modalAt x0 x1 x2 x3 x4 8 q := by
  mode_row 8 Gen.slices_S16x16_o0_8_S16x1 Gen.slices_S16x8192_o8_0_S1x8192
theorem row9 (x0 : Vec Ideal S16x8192 .f32) (x1 x2 : Vec Ideal S16x1 .f32) (x3 : Vec Ideal S16x16 .f32) (x4 : Vec Ideal S16x1 .f32) (q : Fin 8192) :
    (Gen.k0_pay25 (Gen.k0_pay5 x0 x4 x1 x2) (iota Kind.tc S16x8192 32 [0] Gen.iota_S16x8192_d0_w32) (Gen.k0_pay23 (Gen.k0_pay4 x3) (Gen.k0_pay6 x0 x4 x1 x2)) (Gen.k0_pay24 (Gen.k0_pay4 x3) (Gen.k0_pay6 x0 x4 x1 x2)) : FVec Ideal S1x8192 .f32) (ix2 (0 : Fin 1) q) = modalAt x0 x1 x2 x3 x4 9 q := by
  mode_row 9 Gen.slices_S16x16_o0_9_S16x1 Gen.slices_S16x8192_o9_0_S1x8192
theorem row10 (x0 : Vec Ideal S16x8192 .f32) (x1 x2 : Vec Ideal S16x1 .f32) (x3 : Vec Ideal S16x16 .f32) (x4 : Vec Ideal S16x1 .f32) (q : Fin 8192) :
    (Gen.k0_pay26 (Gen.k0_pay4 x3) (Gen.k0_pay5 x0 x4 x1 x2) (Gen.k0_pay6 x0 x4 x1 x2) (iota Kind.tc S16x8192 32 [0] Gen.iota_S16x8192_d0_w32) : FVec Ideal S1x8192 .f32) (ix2 (0 : Fin 1) q) = modalAt x0 x1 x2 x3 x4 10 q := by
  mode_row 10 Gen.slices_S16x16_o0_10_S16x1 Gen.slices_S16x8192_o10_0_S1x8192
theorem row11 (x0 : Vec Ideal S16x8192 .f32) (x1 x2 : Vec Ideal S16x1 .f32) (x3 : Vec Ideal S16x16 .f32) (x4 : Vec Ideal S16x1 .f32) (q : Fin 8192) :
    (Gen.k0_pay29 (iota Kind.tc S16x8192 32 [0] Gen.iota_S16x8192_d0_w32) (Gen.k0_pay27 (Gen.k0_pay4 x3) (Gen.k0_pay6 x0 x4 x1 x2)) (Gen.k0_pay28 (Gen.k0_pay5 x0 x4 x1 x2)) : FVec Ideal S1x8192 .f32) (ix2 (0 : Fin 1) q) = modalAt x0 x1 x2 x3 x4 11 q := by
  mode_row 11 Gen.slices_S16x16_o0_11_S16x1 Gen.slices_S16x8192_o11_0_S1x8192
theorem row12 (x0 : Vec Ideal S16x8192 .f32) (x1 x2 : Vec Ideal S16x1 .f32) (x3 : Vec Ideal S16x16 .f32) (x4 : Vec Ideal S16x1 .f32) (q : Fin 8192) :
    (Gen.k0_pay30 (Gen.k0_pay4 x3) (Gen.k0_pay5 x0 x4 x1 x2) (Gen.k0_pay6 x0 x4 x1 x2) (iota Kind.tc S16x8192 32 [0] Gen.iota_S16x8192_d0_w32) : FVec Ideal S1x8192 .f32) (ix2 (0 : Fin 1) q) = modalAt x0 x1 x2 x3 x4 12 q := by
  mode_row 12 Gen.slices_S16x16_o0_12_S16x1 Gen.slices_S16x8192_o12_0_S1x8192
theorem row13 (x0 : Vec Ideal S16x8192 .f32) (x1 x2 : Vec Ideal S16x1 .f32) (x3 : Vec Ideal S16x16 .f32) (x4 : Vec Ideal S16x1 .f32) (q : Fin 8192) :
    (Gen.k0_pay34 (Gen.k0_pay31 (Gen.k0_pay4 x3) (Gen.k0_pay6 x0 x4 x1 x2)) (Gen.k0_pay32 (Gen.k0_pay5 x0 x4 x1 x2)) (Gen.k0_pay33 (iota Kind.tc S16x8192 32 [0] Gen.iota_S16x8192_d0_w32)) : FVec Ideal S1x8192 .f32) (ix2 (0 : Fin 1) q) = modalAt x0 x1 x2 x3 x4 13 q := by
  mode_row 13 Gen.slices_S16x16_o0_13_S16x1 Gen.slices_S16x8192_o13_0_S1x8192
theorem row14 (x0 : Vec Ideal S16x8192 .f32) (x1 x2 : Vec Ideal S16x1 .f32) (x3 : Vec Ideal S16x16 .f32) (x4 : Vec Ideal S16x1 .f32) (q : Fin 8192) :
    (Gen.k0_pay35 (Gen.k0_pay4 x3) (Gen.k0_pay5 x0 x4 x1 x2) (Gen.k0_pay6 x0 x4 x1 x2) (iota Kind.tc S16x8192 32 [0] Gen.iota_S16x8192_d0_w32) : FVec Ideal S1x8192 .f32) (ix2 (0 : Fin 1) q) = modalAt x0 x1 x2 x3 x4 14 q := by
  mode_row 14 Gen.slices_S16x16_o0_14_S16x1 Gen.slices_S16x8192_o14_0_S1x8192
theorem row15 (x0 : Vec Ideal S16x8192 .f32) (x1 x2 : Vec Ideal S16x1 .f32) (x3 : Vec Ideal S16x16 .f32) (x4 : Vec Ideal S16x1 .f32) (q : Fin 8192) :
    (Gen.k0_pay1 (Gen.k0_pay36 (Gen.k0_pay4 x3) (Gen.k0_pay5 x0 x4 x1 x2) (Gen.k0_pay6 x0 x4 x1 x2) (iota Kind.tc S16x8192 32 [0] Gen.iota_S16x8192_d0_w32)) : FVec Ideal S1x8192 .f32) (ix2 (0 : Fin 1) q) = modalAt x0 x1 x2 x3 x4 15 q := by
  mode_row 15 Gen.slices_S16x16_o0_15_S16x1 Gen.slices_S16x8192_o15_0_S1x8192

/-! ## The scratch block read back, and the two output blocks -/

set_option hygiene false in
/-- One store's payload agrees with the array of energies on its row: an index of the one-row block is (0, q'), which the
    store's rectangle places at (k, q'). -/
local macro "row_case " h:ident k:num : tactic => `(tactic| (
  intro x
  obtain ⟨z, q', rfl⟩ : ∃ (z : Fin 1) (q' : Fin 8192), x = ix2 z q' := ⟨x 0, x 1, eq_ix2 x⟩
  obtain rfl : z = 0 := Subsingleton.elim _ _
  exact ($h x0 x1 x2 x3 x4 q').trans
    (modalBlk_of x0 x1 x2 x3 x4 _ $k q' (by simp [Rect.emb_apply]) (by simp [Rect.emb_apply])).symm))

/-- The sixteen stores, read back through the whole block, give the array of energies. -/
theorem scratch_eq (c : Dev nD) (arg1 : Memref sig .tc .vmem S16x8192 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S16x16 .f32) (harg4 : arg4.IsWhole) (arg5 : Memref sig .tc .vmem S16x1 .f32) (harg5 : arg5.IsWhole) (arg8 : Memref sig .tc .vmem S16x8192 .f32)
    (x0 : Vec Ideal S16x8192 .f32) (x1 x2 : Vec Ideal S16x1 .f32) (x3 : Vec Ideal S16x16 .f32) (x4 : Vec Ideal S16x1 .f32) :
    Gen.kernelRun0_A.sl.v376 (F := Ideal) c arg1 harg1 arg2 harg2 arg3 harg3 arg4 harg4 arg5 harg5 arg8 x0 x1 x2 x3 x4
      = modalBlk x0 x1 x2 x3 x4 := by
  have hz : (![0, 0] : Fin 2 → Nat) = fun _ => 0 := by funext a; match a with | ⟨0, _⟩ => rfl | ⟨1, _⟩ => rfl
  sl_unfold_run_names
  simp only [View.readAt_eq_ld, harg1.read_unread, harg2.read_unread, harg3.read_unread, harg4.read_unread, harg5.read_unread,
    View.ld_unit_zero (S := S16x8192) hz, View.ld_unit_zero (S := S16x1) hz, View.ld_unit_zero (S := S16x16) hz]
  rw [View.readCov_eq_canon']
  funext y
  have hy : (Rect.unit (s := S16x8192) ![0, 0] ![16, 8192] Gen.inb_S16x8192_S16x8192_0_0).idx y = y := by
    funext a; apply Fin.ext
    match a with
    | ⟨0, _⟩ => show 0 + 1 * (y 0).val = (y 0).val; omega
    | ⟨1, _⟩ => show 0 + 1 * (y 1).val = (y 1).val; omega
  rw [hy]
  refine View.canon_apply_of_pieces (modalBlk x0 x1 x2 x3 x4) _ ?_ y
    (View.cover_of_tiledL (s := S16x8192) _ S1x8192.size (by sl_kernel_rfl) y)
  intro p hp
  simp only [List.mem_cons, List.mem_nil_iff, or_false] at hp
  rcases hp with rfl | rfl | rfl | rfl | rfl | rfl | rfl | rfl | rfl | rfl | rfl | rfl | rfl | rfl | rfl | rfl
  · row_case row15 15
  · row_case row14 14
  · row_case row13 13
  · row_case row12 12
  · row_case row11 11
  · row_case row10 10
  · row_case row9 9
  · row_case row8 8
  · row_case row7 7
  · row_case row6 6
  · row_case row5 5
  · row_case row4 4
  · row_case row3 3
  · row_case row2 2
  · row_case row1 1
  · row_case row0 0

/-- The logits block: the closing log-softmax of the array of energies. -/
theorem out6_eq (c : Dev nD) (i : grid0.Coords) (arg1 : Memref sig .tc .vmem S16x8192 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S16x16 .f32) (harg4 : arg4.IsWhole) (arg5 : Memref sig .tc .vmem S16x1 .f32) (harg5 : arg5.IsWhole) (arg6 : Memref sig .tc .vmem S16x8192 .f32) (harg6 : arg6.IsWhole) (arg7 : Memref sig .tc .vmem S16x8192 .f32) (harg7 : arg7.IsWhole) (arg8 : Memref sig .tc .vmem S16x8192 .f32) (harg8 : arg8.IsWhole)
    (x0 : Vec Ideal S16x8192 .f32) (x1 : Vec Ideal S16x1 .f32) (x2 : Vec Ideal S16x1 .f32) (x3 : Vec Ideal S16x16 .f32) (x4 : Vec Ideal S16x1 .f32) :
    Gen.out0_A_6 (F := Ideal) c i arg1 harg1 arg2 harg2 arg3 harg3 arg4 harg4 arg5 harg5 arg6 harg6 arg7 harg7 arg8 harg8 x0 x1 x2 x3 x4 = Gen.k0_pay2 (modalBlk x0 x1 x2 x3 x4) := by
  have hz : (![0, 0] : Fin 2 → Nat) = fun _ => 0 := by funext a; match a with | ⟨0, _⟩ => rfl | ⟨1, _⟩ => rfl
  unfold Gen.out0_A_6
  rw [View.read_writes_eq_canon _ _ _ (Gen.cover0_A_6 c i arg1 harg1 arg2 harg2 arg3 harg3 arg4 harg4 arg5 harg5 arg6 harg6 arg7 harg7 arg8 harg8 x0 x1 x2 x3 x4)]
  unfold Gen.kernelRun0_A
  dsimp only
  rw [View.canon_unit_zero hz, scratch_eq]

/-- The weights block: its exponential. -/
theorem out5_eq (c : Dev nD) (i : grid0.Coords) (arg1 : Memref sig .tc .vmem S16x8192 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S16x16 .f32) (harg4 : arg4.IsWhole) (arg5 : Memref sig .tc .vmem S16x1 .f32) (harg5 : arg5.IsWhole) (arg6 : Memref sig .tc .vmem S16x8192 .f32) (harg6 : arg6.IsWhole) (arg7 : Memref sig .tc .vmem S16x8192 .f32) (harg7 : arg7.IsWhole) (arg8 : Memref sig .tc .vmem S16x8192 .f32) (harg8 : arg8.IsWhole)
    (x0 : Vec Ideal S16x8192 .f32) (x1 : Vec Ideal S16x1 .f32) (x2 : Vec Ideal S16x1 .f32) (x3 : Vec Ideal S16x16 .f32) (x4 : Vec Ideal S16x1 .f32) :
    Gen.out0_A_5 (F := Ideal) c i arg1 harg1 arg2 harg2 arg3 harg3 arg4 harg4 arg5 harg5 arg6 harg6 arg7 harg7 arg8 harg8 x0 x1 x2 x3 x4 = Gen.k0_pay3 (modalBlk x0 x1 x2 x3 x4) := by
  have hz : (![0, 0] : Fin 2 → Nat) = fun _ => 0 := by funext a; match a with | ⟨0, _⟩ => rfl | ⟨1, _⟩ => rfl
  unfold Gen.out0_A_5
  rw [View.read_writes_eq_canon _ _ _ (Gen.cover0_A_5 c i arg1 harg1 arg2 harg2 arg3 harg3 arg4 harg4 arg5 harg5 arg6 harg6 arg7 harg7 arg8 harg8 x0 x1 x2 x3 x4)]
  unfold Gen.kernelRun0_A
  dsimp only
  rw [View.canon_unit_zero hz, scratch_eq]

/-- The logits block, at (r, q). -/
theorem out6_apply (c : Dev nD) (i : grid0.Coords) (arg1 : Memref sig .tc .vmem S16x8192 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S16x16 .f32) (harg4 : arg4.IsWhole) (arg5 : Memref sig .tc .vmem S16x1 .f32) (harg5 : arg5.IsWhole) (arg6 : Memref sig .tc .vmem S16x8192 .f32) (harg6 : arg6.IsWhole) (arg7 : Memref sig .tc .vmem S16x8192 .f32) (harg7 : arg7.IsWhole) (arg8 : Memref sig .tc .vmem S16x8192 .f32) (harg8 : arg8.IsWhole)
    (x0 : Vec Ideal S16x8192 .f32) (x1 : Vec Ideal S16x1 .f32) (x2 : Vec Ideal S16x1 .f32) (x3 : Vec Ideal S16x16 .f32) (x4 : Vec Ideal S16x1 .f32) (r : Fin 16) (q : Fin 8192) :
    Gen.out0_A_6 (F := Ideal) c i arg1 harg1 arg2 harg2 arg3 harg3 arg4 harg4 arg5 harg5 arg6 harg6 arg7 harg7 arg8 harg8 x0 x1 x2 x3 x4 (ix2 r q)
      = expLogit (fun j => phiAt (x0 (ix2 j q)) (x4 (ix2 j (0 : Fin 1))) (x1 (ix2 j (0 : Fin 1))) (x2 (ix2 j (0 : Fin 1))))
          (fun a b => x3 (ix2 a b)) r := by
  rw [out6_eq, logits_apply]
  simp only [modalBlk_apply, modalAt_eq]
  rfl

/-- The weights block, at (r, q): the exponential of the logits. -/
theorem out5_apply (c : Dev nD) (i : grid0.Coords) (arg1 : Memref sig .tc .vmem S16x8192 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S16x16 .f32) (harg4 : arg4.IsWhole) (arg5 : Memref sig .tc .vmem S16x1 .f32) (harg5 : arg5.IsWhole) (arg6 : Memref sig .tc .vmem S16x8192 .f32) (harg6 : arg6.IsWhole) (arg7 : Memref sig .tc .vmem S16x8192 .f32) (harg7 : arg7.IsWhole) (arg8 : Memref sig .tc .vmem S16x8192 .f32) (harg8 : arg8.IsWhole)
    (x0 : Vec Ideal S16x8192 .f32) (x1 : Vec Ideal S16x1 .f32) (x2 : Vec Ideal S16x1 .f32) (x3 : Vec Ideal S16x16 .f32) (x4 : Vec Ideal S16x1 .f32) (r : Fin 16) (q : Fin 8192) :
    Gen.out0_A_5 (F := Ideal) c i arg1 harg1 arg2 harg2 arg3 harg3 arg4 harg4 arg5 harg5 arg6 harg6 arg7 harg7 arg8 harg8 x0 x1 x2 x3 x4 (ix2 r q)
      = Ideal.exp (expLogit (fun j => phiAt (x0 (ix2 j q)) (x4 (ix2 j (0 : Fin 1))) (x1 (ix2 j (0 : Fin 1))) (x2 (ix2 j (0 : Fin 1))))
          (fun a b => x3 (ix2 a b)) r) := by
  rw [out5_eq, alphas_apply, ← out6_eq c i arg1 harg1 arg2 harg2 arg3 harg3 arg4 harg4 arg5 harg5 arg6 harg6 arg7 harg7 arg8 harg8 x0 x1 x2 x3 x4, out6_apply]

end Cert.KernelIdeal.BodyValue

end
-- ==== Proof.KerArray.lean ====
/-
  The kernel program's two results as whole arrays.

  The program pads the transposed data to 507904 columns, runs its body once for each of the 62 blocks of 8192 columns, and
  afterwards cuts each of the two result arrays back to its first 500000 columns and transposes it. At one block the body's
  two outputs at `(r, q)` are a function `expLogit` (and its exponential) of the column `q` of the data block and of the four
  small arrays, which every block reads whole. A block's element `(j, q)` at point `t` is the array's element `(j, t·8192 + q)`
  (block index × block size + the coordinate inside the block), so the block the body leaves at point `t` is block `t` of ONE function
  of the arrays over `[16, 507904]`: the logit at `(i, Q)` computed from column `Q` of the padded data. The 62 blocks tile the
  507904 columns (column `Q` lies in block `Q / 8192`), so after the last point each result array IS that function. The cut and
  the transpose then read, at `(n, i)` with `n < 500000`, the function at `(i, n)`, where the padded data is the data itself and
  the one-column arrays of scales and offsets are the vectors: the logit of row `n`, mode `i`, and its exponential.

  The arrays as the body's region finds them are carried as opaque functions throughout: every step that computes with indices is
  stated over an arbitrary array and only then used at the program's.
-/
import proofs.«153629_j81707457839189_2_alg».proof.Proof.Gen.KernelIdeal.Frame
import proofs.«153629_j81707457839189_2_alg».proof.Proof.KerBody
import proofs.«153629_j81707457839189_2_alg».proof.Proof.PowerSoftmax
import proofs.«153629_j81707457839189_2_alg».proof.Proof.KerInputs
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ArrayValue

open Cert.KernelIdeal Cert.KernelIdeal.Gen Cert.PowerSoftmax
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The printed index maps over the grid: the data window and the two output windows sit at block (0, t); the four small windows at (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-! ## A window's block read at an index, the array a variable

Each is the array at the element the block's rectangle puts there: block index × block size + the coordinate inside the block. -/

theorem read0 (A : S16x507904.Idx → EReal) (t : Fin cfg0.N) (j : Fin 16) (q : Fin 8192) (Q : Fin 507904) (hQ : Q.val = t.val * 8192 + q.val) :
    (((cfg0.win 0).blk t).view.read (Elt Ideal) A : S16x8192.Idx → EReal) (ix2 j q) = A (ix2 j Q) := by
  obtain ⟨e0, e1, -⟩ := idx_facts t
  rw [View.read_apply]
  show A _ = A _
  refine congrArg A ?_
  funext a; apply Fin.ext
  match a with
  | ⟨0, _⟩ => show win0_0.index t (0 : Fin 2) * 16 + 1 * j.val = j.val; rw [e0]; omega
  | ⟨1, _⟩ => show win0_0.index t (1 : Fin 2) * 8192 + 1 * q.val = Q.val; rw [e1, hQ]; omega

theorem read1 (A : S16x1.Idx → EReal) (t : Fin cfg0.N) (j : Fin 16) :
    (((cfg0.win 1).blk t).view.read (Elt Ideal) A : S16x1.Idx → EReal) (ix2 j (0 : Fin 1)) = A (ix2 j (0 : Fin 1)) := by
  obtain ⟨-, -, e0, e1, -⟩ := idx_facts t
  rw [View.read_apply]
  show A _ = A _
  refine congrArg A ?_
  funext a; apply Fin.ext
  match a with
  | ⟨0, _⟩ => show win0_1.index t (0 : Fin 2) * 16 + 1 * j.val = j.val; rw [e0]; omega
  | ⟨1, _⟩ => show win0_1.index t (1 : Fin 2) * 1 + 1 * 0 = 0; rw [e1]

theorem read2 (A : S16x1.Idx → EReal) (t : Fin cfg0.N) (j : Fin 16) :
    (((cfg0.win 2).blk t).view.read (Elt Ideal) A : S16x1.Idx → EReal) (ix2 j (0 : Fin 1)) = A (ix2 j (0 : Fin 1)) := by
  obtain ⟨-, -, -, -, e0, e1, -⟩ := idx_facts t
  rw [View.read_apply]
  show A _ = A _
  refine congrArg A ?_
  funext a; apply Fin.ext
  match a with
  | ⟨0, _⟩ => show win0_2.index t (0 : Fin 2) * 16 + 1 * j.val = j.val; rw [e0]; omega
  | ⟨1, _⟩ => show win0_2.index t (1 : Fin 2) * 1 + 1 * 0 = 0; rw [e1]

theorem read3 (A : S16x16.Idx → EReal) (t : Fin cfg0.N) (a b : Fin 16) :
    (((cfg0.win 3).blk t).view.read (Elt Ideal) A : S16x16.Idx → EReal) (ix2 a b) = A (ix2 a b) := by
  obtain ⟨-, -, -, -, -, -, e0, e1, -⟩ := idx_facts t
  rw [View.read_apply]
  show A _ = A _
  refine congrArg A ?_
  funext x; apply Fin.ext
  match x with
  | ⟨0, _⟩ => show win0_3.index t (0 : Fin 2) * 16 + 1 * a.val = a.val; rw [e0]; omega
  | ⟨1, _⟩ => show win0_3.index t (1 : Fin 2) * 16 + 1 * b.val = b.val; rw [e1]; omega

theorem read4 (A : S16x1.Idx → EReal) (t : Fin cfg0.N) (j : Fin 16) :
    (((cfg0.win 4).blk t).view.read (Elt Ideal) A : S16x1.Idx → EReal) (ix2 j (0 : Fin 1)) = A (ix2 j (0 : Fin 1)) := by
  obtain ⟨-, -, -, -, -, -, -, -, e0, e1, -⟩ := idx_facts t
  rw [View.read_apply]
  show A _ = A _
  refine congrArg A ?_
  funext a; apply Fin.ext
  match a with
  | ⟨0, _⟩ => show win0_4.index t (0 : Fin 2) * 16 + 1 * j.val = j.val; rw [e0]; omega
  | ⟨1, _⟩ => show win0_4.index t (1 : Fin 2) * 1 + 1 * 0 = 0; rw [e1]

/-! ## The input blocks at a point, read where the body reads them -/

theorem iblk0_apply (t : Fin cfg0.N) (j : Fin 16) (q : Fin 8192) (Q : Fin 507904) (hQ : Q.val = t.val * 8192 + q.val) :
    (iblk m c 0 t : Vec Ideal S16x8192 .f32) (ix2 j q) = (V m c main_v5 : S16x507904.Idx → EReal) (ix2 j Q) := by
  unfold iblk
  exact read0 (V m c main_v5) t j q Q hQ

theorem iblk1_apply (t : Fin cfg0.N) (j : Fin 16) :
    (iblk m c 1 t : Vec Ideal S16x1 .f32) (ix2 j (0 : Fin 1)) = (V m c main_v6 : S16x1.Idx → EReal) (ix2 j (0 : Fin 1)) := by
  unfold iblk
  exact read1 (V m c main_v6) t j

theorem iblk2_apply (t : Fin cfg0.N) (j : Fin 16) :
    (iblk m c 2 t : Vec Ideal S16x1 .f32) (ix2 j (0 : Fin 1)) = (V m c main_v7 : S16x1.Idx → EReal) (ix2 j (0 : Fin 1)) := by
  unfold iblk
  exact read2 (V m c main_v7) t j

theorem iblk3_apply (t : Fin cfg0.N) (a b : Fin 16) :
    (iblk m c 3 t : Vec Ideal S16x16 .f32) (ix2 a b) = (V m c main_v3 : S16x16.Idx → EReal) (ix2 a b) := by
  unfold iblk
  exact read3 (V m c main_v3) t a b

theorem iblk4_apply (t : Fin cfg0.N) (j : Fin 16) :
    (iblk m c 4 t : Vec Ideal S16x1 .f32) (ix2 j (0 : Fin 1)) = (V m c main_v8 : S16x1.Idx → EReal) (ix2 j (0 : Fin 1)) := by
  unfold iblk
  exact read4 (V m c main_v8) t j

/-! ## The two results on the padded array -/

/-- The logit of mode `i` at column `Q`, from five arrays: the padded transposed data `A5`, the columns of scales `A6`,
    offsets `A7` and minima `A8`, and the exponent matrix `A3`. -/
def logitOf (A5 : S16x507904.Idx → EReal) (A6 A7 A8 : S16x1.Idx → EReal) (A3 : S16x16.Idx → EReal) (i : Fin 16) (Q : Fin 507904) : EReal :=
  expLogit
    (fun j => phiAt (A5 (ix2 j Q)) (A8 (ix2 j (0 : Fin 1))) (A6 (ix2 j (0 : Fin 1))) (A7 (ix2 j (0 : Fin 1))))
    (fun a b => A3 (ix2 a b)) i

/-- A function of a row and a column as an array over `[16, 507904]`. -/
def arrOf (f : Fin 16 → Fin 507904 → EReal) : S16x507904.Idx → EReal := fun I => f (I 0) (I 1)
theorem arrOf_apply (f : Fin 16 → Fin 507904 → EReal) (i : Fin 16) (Q : Fin 507904) : arrOf f (ix2 i Q) = f i Q := rfl

/-- One block's values from five blocks `x0 … x4` are the array's values from five arrays, when the blocks read the arrays
    where the body reads them: the data block at column `q` is the data at column `Q`, the others are the arrays themselves. -/
theorem logit_blocks (x0 : S16x8192.Idx → EReal) (x1 x2 x4 : S16x1.Idx → EReal) (x3 : S16x16.Idx → EReal)
    (A5 : S16x507904.Idx → EReal) (A6 A7 A8 : S16x1.Idx → EReal) (A3 : S16x16.Idx → EReal) (q : Fin 8192) (Q : Fin 507904)
    (h0 : ∀ j : Fin 16, x0 (ix2 j q) = A5 (ix2 j Q)) (h1 : ∀ j : Fin 16, x1 (ix2 j (0 : Fin 1)) = A6 (ix2 j (0 : Fin 1)))
    (h2 : ∀ j : Fin 16, x2 (ix2 j (0 : Fin 1)) = A7 (ix2 j (0 : Fin 1))) (h4 : ∀ j : Fin 16, x4 (ix2 j (0 : Fin 1)) = A8 (ix2 j (0 : Fin 1)))
    (h3 : ∀ a b : Fin 16, x3 (ix2 a b) = A3 (ix2 a b)) (r : Fin 16) :
    expLogit (fun j => phiAt (x0 (ix2 j q)) (x4 (ix2 j (0 : Fin 1))) (x1 (ix2 j (0 : Fin 1))) (x2 (ix2 j (0 : Fin 1))))
      (fun a b => x3 (ix2 a b)) r = logitOf A5 A6 A7 A8 A3 r Q := by
  unfold logitOf
  simp only [h0, h1, h2, h4, h3]

/-- The logit of mode `i` at column `Q` of the padded, transposed data, from the arrays as the region finds them. -/
def padLogit (i : Fin 16) (Q : Fin 507904) : EReal :=
  logitOf (V m c main_v5) (V m c main_v6) (V m c main_v7) (V m c main_v8) (V m c main_v3) i Q

/-- The logits as one array over `[16, 507904]`. -/
def padLogits : S16x507904.Idx → EReal := arrOf (padLogit m c)
/-- The weights as one array over `[16, 507904]`: the exponentials of the logits. -/
def padAlphas : S16x507904.Idx → EReal := arrOf (fun i Q => Ideal.exp (padLogit m c i Q))

theorem padLogits_apply (i : Fin 16) (Q : Fin 507904) : padLogits m c (ix2 i Q) = padLogit m c i Q :=
  arrOf_apply (padLogit m c) i Q
theorem padAlphas_apply (i : Fin 16) (Q : Fin 507904) : padAlphas m c (ix2 i Q) = Ideal.exp (padLogit m c i Q) :=
  arrOf_apply (fun i Q => Ideal.exp (padLogit m c i Q)) i Q

/-- The five input blocks at point `t`, read where the body reads them, are the arrays at column `t·8192 + q`. -/
theorem blocks_eq (t : Fin cfg0.N) (q : Fin 8192) (Q : Fin 507904) (hQ : Q.val = t.val * 8192 + q.val) (r : Fin 16) :
    expLogit (fun j => phiAt ((iblk m c 0 t : Vec Ideal S16x8192 .f32) (ix2 j q)) ((iblk m c 4 t : Vec Ideal S16x1 .f32) (ix2 j (0 : Fin 1)))
        ((iblk m c 1 t : Vec Ideal S16x1 .f32) (ix2 j (0 : Fin 1))) ((iblk m c 2 t : Vec Ideal S16x1 .f32) (ix2 j (0 : Fin 1))))
      (fun a b => (iblk m c 3 t : Vec Ideal S16x16 .f32) (ix2 a b)) r = padLogit m c r Q :=
  logit_blocks (iblk m c 0 t) (iblk m c 1 t) (iblk m c 2 t) (iblk m c 4 t) (iblk m c 3 t)
    (V m c main_v5) (V m c main_v6) (V m c main_v7) (V m c main_v8) (V m c main_v3) q Q
    (fun j => iblk0_apply m c t j q Q hQ) (fun j => iblk1_apply m c t j) (fun j => iblk2_apply m c t j) (fun j => iblk4_apply m c t j)
    (fun a b => iblk3_apply m c t a b) r

/-- What point `t` leaves in the logits' staging block, at `(r, q)`. -/
theorem out6_point (t : Fin cfg0.N) (r : Fin 16) (q : Fin 8192) (Q : Fin 507904) (hQ : Q.val = t.val * 8192 + q.val) :
    (outsAt0 m c t).2 (ix2 r q) = padLogit m c r Q := by
  unfold outsAt0
  dsimp only
  exact (Cert.KernelIdeal.BodyValue.out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (iblk m c 2 t) (iblk m c 3 t) (iblk m c 4 t) r q).trans (blocks_eq m c t q Q hQ r)

/-- What point `t` leaves in the weights' staging block, at `(r, q)`. -/
theorem out5_point (t : Fin cfg0.N) (r : Fin 16) (q : Fin 8192) (Q : Fin 507904) (hQ : Q.val = t.val * 8192 + q.val) :
    (outsAt0 m c t).1 (ix2 r q) = Ideal.exp (padLogit m c r Q) := by
  unfold outsAt0
  dsimp only
  exact (Cert.KernelIdeal.BodyValue.out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (iblk m c 2 t) (iblk m c 3 t) (iblk m c 4 t) r q).trans (congrArg Ideal.exp (blocks_eq m c t q Q hQ r))

/-! ## From blocks to the arrays -/

/-- A block against an array, over literal index types: if the block at `(r, q)` is the array at `(r, T·8192 + q)`, then the block at
    an index `y` is the array at any index `I` with those coordinates. -/
theorem block_point (X : S16x8192.Idx → EReal) (G : S16x507904.Idx → EReal) (T : Nat)
    (h : ∀ (r : Fin 16) (q : Fin 8192) (Q : Fin 507904), Q.val = T * 8192 + q.val → X (ix2 r q) = G (ix2 r Q))
    (y : S16x8192.Idx) (I : S16x507904.Idx) (h0 : (I 0).val = (y 0).val) (h1 : (I 1).val = T * 8192 + (y 1).val) : X y = G I := by
  obtain ⟨r, q, rfl⟩ : ∃ (r : Fin 16) (q : Fin 8192), y = ix2 r q := ⟨y 0, y 1, eq_ix2 y⟩
  obtain ⟨i, Q, rfl⟩ : ∃ (i : Fin 16) (Q : Fin 507904), I = ix2 i Q := ⟨I 0, I 1, eq_ix2 I⟩
  obtain rfl : i = r := Fin.ext h0
  exact h i q Q h1

/-- What point `t` writes back to the logits' array is block `t` of `padLogits`. -/
theorem flushed6_eq (t : Fin cfg0.N) :
    (dats m 0 c).flushed 6 t = ((cfg0.win 6).blk t).view.read (Elt Ideal) (padLogits m c) := by
  show (cfg0.win 6).cut (grid0.coords t) ((dats m 0 c).after 6 t) = _
  rw [after0_6]
  obtain ⟨-, -, -, -, -, -, -, -, -, -, -, -, e0, e1⟩ := idx_facts t
  have hpt : ∀ (r : Fin 16) (q : Fin 8192) (Q : Fin 507904), Q.val = t.val * 8192 + q.val →
      (outsAt0 m c t).2 (ix2 r q) = padLogits m c (ix2 r Q) :=
    fun r q Q hQ => (out6_point m c t r q Q hQ).trans (padLogits_apply m c r Q).symm
  generalize (outsAt0 m c t).2 = X at hpt ⊢
  generalize padLogits m c = G at hpt ⊢
  funext y
  rw [View.read_apply]
  show X ((cfg0.win 6).xinj (grid0.coords t) y) = G (((cfg0.win 6).blk t).view.emb y)
  refine block_point X G t.val hpt _ _ ?_ ?_
  · show win0_6.index t (0 : Fin 2) * 16 + 1 * (y 0).val = (y 0).val; rw [e0]; omega
  · show win0_6.index t (1 : Fin 2) * 8192 + 1 * (y 1).val = t.val * 8192 + (y 1).val; rw [e1]; omega

/-- What point `t` writes back to the weights' array is block `t` of `padAlphas`. -/
theorem flushed5_eq (t : Fin cfg0.N) :
    (dats m 0 c).flushed 5 t = ((cfg0.win 5).blk t).view.read (Elt Ideal) (padAlphas m c) := by
  show (cfg0.win 5).cut (grid0.coords t) ((dats m 0 c).after 5 t) = _
  rw [after0_5]
  obtain ⟨-, -, -, -, -, -, -, -, -, -, e0, e1, -⟩ := idx_facts t
  have hpt : ∀ (r : Fin 16) (q : Fin 8192) (Q : Fin 507904), Q.val = t.val * 8192 + q.val →
      (outsAt0 m c t).1 (ix2 r q) = padAlphas m c (ix2 r Q) :=
    fun r q Q hQ => (out5_point m c t r q Q hQ).trans (padAlphas_apply m c r Q).symm
  generalize (outsAt0 m c t).1 = X at hpt ⊢
  generalize padAlphas m c = G at hpt ⊢
  funext y
  rw [View.read_apply]
  show X ((cfg0.win 5).xinj (grid0.coords t) y) = G (((cfg0.win 5).blk t).view.emb y)
  refine block_point X G t.val hpt _ _ ?_ ?_
  · show win0_5.index t (0 : Fin 2) * 16 + 1 * (y 0).val = (y 0).val; rw [e0]; omega
  · show win0_5.index t (1 : Fin 2) * 8192 + 1 * (y 1).val = t.val * 8192 + (y 1).val; rw [e1]; omega

/-- An index of the logits' array is in point `t`'s block iff each coordinate is in the block's range on its axis. -/
theorem mem_blk6 (t : Fin cfg0.N) (i : S16x507904.Idx) :
    i ∈ ((cfg0.win 6).blk t).view.set ↔ ∀ a : Fin 2, win0_6.index t a * S16x8192.size a ≤ (i a).val ∧ (i a).val < win0_6.index t a * S16x8192.size a + S16x8192.size a := by
  show i ∈ ((View.whole main_v9_1).slice (win0_6.rect t)).set ↔ _
  rw [View.set_slice_whole, Rect.mem_set_unit]
  exact Iff.rfl

theorem mem_blk5 (t : Fin cfg0.N) (i : S16x507904.Idx) :
    i ∈ ((cfg0.win 5).blk t).view.set ↔ ∀ a : Fin 2, win0_5.index t a * S16x8192.size a ≤ (i a).val ∧ (i a).val < win0_5.index t a * S16x8192.size a + S16x8192.size a := by
  show i ∈ ((View.whole main_v9_0).slice (win0_5.rect t)).set ↔ _
  rw [View.set_slice_whole, Rect.mem_set_unit]
  exact Iff.rfl

/-- Column `Q` lies in the block of point `Q / 8192`: the 62 blocks of 8192 columns tile the 507904 columns. -/
theorem cover6 (i : S16x507904.Idx) : ∃ t : Fin cfg0.N, (cfg0.win 6).flush t = true ∧ i ∈ ((cfg0.win 6).blk t).view.set := by
  have hN : cfg0.N = 62 := N_0
  have hi0 : (i 0).val < 16 := (i 0).isLt
  have hi1 : (i 1).val < 507904 := (i 1).isLt
  obtain ⟨t, ht⟩ : ∃ t : Fin cfg0.N, t.val = (i 1).val / 8192 := ⟨⟨(i 1).val / 8192, by rw [hN]; omega⟩, rfl⟩
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 16 ≤ (i 0).val ∧ (i 0).val < win0_6.index t (0 : Fin 2) * 16 + 16; rw [e0]; omega
  | ⟨1, _⟩ => show win0_6.index t (1 : Fin 2) * 8192 ≤ (i 1).val ∧ (i 1).val < win0_6.index t (1 : Fin 2) * 8192 + 8192; rw [e1, ht]; omega

theorem cover5 (i : S16x507904.Idx) : ∃ t : Fin cfg0.N, (cfg0.win 5).flush t = true ∧ i ∈ ((cfg0.win 5).blk t).view.set := by
  have hN : cfg0.N = 62 := N_0
  have hi0 : (i 0).val < 16 := (i 0).isLt
  have hi1 : (i 1).val < 507904 := (i 1).isLt
  obtain ⟨t, ht⟩ : ∃ t : Fin cfg0.N, t.val = (i 1).val / 8192 := ⟨⟨(i 1).val / 8192, by rw [hN]; omega⟩, rfl⟩
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 16 ≤ (i 0).val ∧ (i 0).val < win0_5.index t (0 : Fin 2) * 16 + 16; rw [e0]; omega
  | ⟨1, _⟩ => show win0_5.index t (1 : Fin 2) * 8192 ≤ (i 1).val ∧ (i 1).val < win0_5.index t (1 : Fin 2) * 8192 + 8192; rw [e1, ht]; omega

/-- The logits' array after the run. -/
theorem final6 : (dats m 0 c).arrAt 6 cfg0.N = padLogits m c :=
  (dats m 0 c).arrAt_eq_of_cover 6 (padLogits m c) (fun t _ => flushed6_eq m c t) cover6

/-- The weights' array after the run. -/
theorem final5 : (dats m 0 c).arrAt 5 cfg0.N = padAlphas m c :=
  (dats m 0 c).arrAt_eq_of_cover 5 (padAlphas m c) (fun t _ => flushed5_eq m c t) cover5

/-! ## The two results: the padded arrays cut back to 500000 columns and transposed -/

/-- the logit of row n, mode i -/
def logitAt (n : Fin 500000) (i : Fin 16) : EReal :=
  Cert.PowerSoftmax.expLogit
    (fun j => Cert.PowerSoftmax.phiAt (m ((c.tc : Thread nD τ).loc main_arg0) (ix2 n j)) ((Gen.V m c main_v8 : S16x1.Idx → EReal) (ix2 j (0 : Fin 1)))
        (m ((c.tc : Thread nD τ).loc main_arg1) (ix1 j)) (m ((c.tc : Thread nD τ).loc main_arg2) (ix1 j)))
    (fun a b => (Gen.V m c main_v3 : S16x16.Idx → EReal) (ix2 a b)) i

/-- The logit from five arrays when three of them are given at the indices it reads. -/
theorem logitOf_eq (A5 : S16x507904.Idx → EReal) (A6 A7 A8 : S16x1.Idx → EReal) (A3 : S16x16.Idx → EReal)
    (d0 d1 d2 : Fin 16 → EReal) (Q : Fin 507904)
    (h5 : ∀ j : Fin 16, A5 (ix2 j Q) = d0 j) (h6 : ∀ j : Fin 16, A6 (ix2 j (0 : Fin 1)) = d1 j)
    (h7 : ∀ j : Fin 16, A7 (ix2 j (0 : Fin 1)) = d2 j) (i : Fin 16) :
    logitOf A5 A6 A7 A8 A3 i Q
      = expLogit (fun j => phiAt (d0 j) (A8 (ix2 j (0 : Fin 1))) (d1 j) (d2 j)) (fun a b => A3 (ix2 a b)) i := by
  unfold logitOf
  simp only [h5, h6, h7]

/-- At a column below 500000 the padded data is the data, and the columns of scales and offsets are the vectors. -/
theorem padLogit_eq (n : Fin 500000) (i : Fin 16) : padLogit m c i ⟨n.val, by omega⟩ = logitAt m c n i := by
  unfold padLogit logitAt
  exact logitOf_eq (V m c main_v5) (V m c main_v6) (V m c main_v7) (V m c main_v8) (V m c main_v3)
    (fun j => m ((c.tc : Thread nD τ).loc main_arg0) (ix2 n j)) (fun j => m ((c.tc : Thread nD τ).loc main_arg1) (ix1 j))
    (fun j => m ((c.tc : Thread nD τ).loc main_arg2) (ix1 j)) ⟨n.val, by omega⟩
    (fun j => Cert.KernelIdeal.InputValue.V5_apply m c j n) (fun j => Cert.KernelIdeal.InputValue.V6_apply m c j)
    (fun j => Cert.KernelIdeal.InputValue.V7_apply m c j) i

/-- The logits: the padded array cut to its first 500000 columns, transposed. -/
def kerLogits : S500000x16.Idx → EReal :=
  transpose S500000x16 [1, 0] (extractStridedSlice S16x500000 ![0, 0] (padLogits m c) slices_S16x507904_S16x500000_0_0)
    transposes_S16x500000_S500000x16_1_0

/-- The weights: the same of the padded weights. -/
def kerAlphas : S500000x16.Idx → EReal :=
  transpose S500000x16 [1, 0] (extractStridedSlice S16x500000 ![0, 0] (padAlphas m c) slices_S16x507904_S16x500000_0_0)
    transposes_S16x500000_S500000x16_1_0

/-- The logits at row `n`, mode `i`: the transpose reads `(i, n)` of the cut array, the cut reads column `n` of the padded one. -/
theorem kerLogits_apply (n : Fin 500000) (i : Fin 16) : kerLogits m c (ix2 n i) = logitAt m c n i := by
  unfold kerLogits
  have hG : ∀ (i : Fin 16) (Q : Fin 507904), padLogits m c (ix2 i Q) = padLogit m c i Q := padLogits_apply m c
  generalize padLogits m c = G at hG ⊢
  refine (transpose_ix2_apply _ transposes_S16x500000_S500000x16_1_0 n i).trans ?_
  refine (slice2_axis1_apply 0 G slices_S16x507904_S16x500000_0_0 i n ⟨n.val, by omega⟩ (Nat.zero_add _).symm).trans ?_
  exact (hG i _).trans (padLogit_eq m c n i)

/-- The weights at row `n`, mode `i`: the exponential of the logit. -/
theorem kerAlphas_apply (n : Fin 500000) (i : Fin 16) : kerAlphas m c (ix2 n i) = Ideal.exp (logitAt m c n i) := by
  unfold kerAlphas
  have hG : ∀ (i : Fin 16) (Q : Fin 507904), padAlphas m c (ix2 i Q) = Ideal.exp (padLogit m c i Q) := padAlphas_apply m c
  generalize padAlphas m c = G at hG ⊢
  refine (transpose_ix2_apply _ transposes_S16x500000_S500000x16_1_0 n i).trans ?_
  refine (slice2_axis1_apply 0 G slices_S16x507904_S16x500000_0_0 i n ⟨n.val, by omega⟩ (Nat.zero_add _).symm).trans ?_
  exact (hG i _).trans (congrArg Ideal.exp (padLogit_eq m c n i))

/-! ## The run -/

/-- After the region the program cuts the logits' array to 500000 columns and transposes it. -/
theorem tail13 : Pipeline.afterTail₀ cfgs (dats m) 0 (V0 m) [hostOps1] c main_v13 = kerLogits m c := by
  unfold Pipeline.afterTail₀
  show StableHlo.after hostOps1 _ (Proc.devRef .tc main_v13) = _
  after_results
  unfold kerLogits
  refine congrArg (fun X : S16x507904.Idx → EReal => transpose S500000x16 [1, 0]
    (extractStridedSlice S16x500000 ![0, 0] X slices_S16x507904_S16x500000_0_0) transposes_S16x500000_S500000x16_1_0) ?_
  exact (Pipeline.withArrays_arr spec0 launch0.win.arr_inj c _ _ 6).trans (final6 m c)

/-- And the same of the weights' array. -/
theorem tail11 : Pipeline.afterTail₀ cfgs (dats m) 0 (V0 m) [hostOps1] c main_v11 = kerAlphas m c := by
  unfold Pipeline.afterTail₀
  show StableHlo.after hostOps1 _ (Proc.devRef .tc main_v11) = _
  after_results
  unfold kerAlphas
  refine congrArg (fun X : S16x507904.Idx → EReal => transpose S500000x16 [1, 0]
    (extractStridedSlice S16x500000 ![0, 0] X slices_S16x507904_S16x500000_0_0) transposes_S16x500000_S500000x16_1_0) ?_
  exact (Pipeline.withArrays_arr spec0 launch0.win.arr_inj c _ _ 5).trans (final5 m c)

/-- The kernel program's run: its two results are `kerAlphas` and `kerLogits`, its four arguments end as launched. -/
theorem kernel_run : θ_run (defs (F := Ideal)) (onTc (τ := τ) (main (F := Ideal))) ⟨m, fun _ => 0, ρ⟩ (fun r => ∀ c : Dev nD,
      r.2.mem ((c.tc : Thread nD τ).loc main_v11) = kerAlphas m c
    ∧ r.2.mem ((c.tc : Thread nD τ).loc main_v13) = kerLogits m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans (tail11 m c),
      ((h c).2 main_v13 (Pipeline.mem_restRefs_of main_v13 (by decide) (by decide))).trans (tail13 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrayValue

end
-- ==== Proof.lean ====
/-
  The certificate's claim: the kernel's program and its jnp reference compute the same log-softmax weights and logits of the
  pairwise power-interpolated energies, on the extended reals, wherever every input is a finite number and the bases
  `(1 + w) · max (V - min V + e) e + b` of the reference's real powers are positive.

  The three frames: the kernel's two programs by their generated frame certificates, the reference by its run. The ideal pass
  rewrote nothing, so there is nothing to preserve. The two idealized programs agree: the kernel's program ends with its two
  results at the whole-array functions `kerAlphas`, `kerLogits` (the blocks the grid points wrote, sliced and transposed back to
  rows × modes); the reference's run ends with its results at its stages' terms; and row by row, mode by mode, the reference's
  logit (the power spelling) is the kernel's (the exponential spelling) by `Cert.Join.logit_eq`, the weights their exponentials.
-/
import proofs.«153629_j81707457839189_2_alg».proof.Defs
import proofs.«153629_j81707457839189_2_alg».proof.Proof.Gen.Kernel
import proofs.«153629_j81707457839189_2_alg».proof.Proof.Gen.Kernel.Skeleton
import proofs.«153629_j81707457839189_2_alg».proof.Proof.Gen.Kernel.Launch
import proofs.«153629_j81707457839189_2_alg».proof.Proof.Gen.Kernel.Points
import proofs.«153629_j81707457839189_2_alg».proof.Proof.Gen.Kernel.Frame
import proofs.«153629_j81707457839189_2_alg».proof.Proof.Gen.KernelIdeal
import proofs.«153629_j81707457839189_2_alg».proof.Proof.Gen.KernelIdeal.Skeleton
import proofs.«153629_j81707457839189_2_alg».proof.Proof.Gen.KernelIdeal.Launch
import proofs.«153629_j81707457839189_2_alg».proof.Proof.Gen.KernelIdeal.Points
import proofs.«153629_j81707457839189_2_alg».proof.Proof.Gen.KernelIdeal.Frame
import proofs.«153629_j81707457839189_2_alg».proof.Proof.Gen.ReferenceIdeal
import proofs.«153629_j81707457839189_2_alg».proof.Proof.Gen.Pre_finite_inputs
import proofs.«153629_j81707457839189_2_alg».proof.Proof.RefRun
import proofs.«153629_j81707457839189_2_alg».proof.Proof.RefRead
import proofs.«153629_j81707457839189_2_alg».proof.Proof.RefReadEq
import proofs.«153629_j81707457839189_2_alg».proof.Proof.Join
import proofs.«153629_j81707457839189_2_alg».proof.Proof.KerArray
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.ArrayValue.kerAlphas m c, fun c => Cert.KernelIdeal.ArrayValue.kerLogits m c,
    Cert.KernelIdeal.ArrayValue.kernel_run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v46_eq, (hagree c).1, (hagree c).2.1, (hagree c).2.2.1, (hagree c).2.2.2]
    funext idx
    obtain ⟨n, i, rfl⟩ : ∃ (n : Fin 500000) (i : Fin 16), idx = ix2 n i := ⟨idx 0, idx 1, eq_ix2 idx⟩
    rw [Cert.RefSide.alphas_apply, Cert.Join.logit_eq m c (hpre c) n i]
    exact (Cert.KernelIdeal.ArrayValue.kerAlphas_apply m c n i).symm
  · rw [Cert.ReferenceIdeal.ReadP.val_main_v45_eq, (hagree c).1, (hagree c).2.1, (hagree c).2.2.1, (hagree c).2.2.2]
    funext idx
    obtain ⟨n, i, rfl⟩ : ∃ (n : Fin 500000) (i : Fin 16), idx = ix2 n i := ⟨idx 0, idx 1, eq_ix2 idx⟩
    rw [Cert.Join.logit_eq m c (hpre c) n i]
    exact (Cert.KernelIdeal.ArrayValue.kerLogits_apply m c n i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
